-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x8192 : Shape := ⟨3, ![16, 64, 8192]⟩
abbrev S8192x8192 : Shape := ⟨2, ![8192, 8192]⟩
abbrev S128x320 : Shape := ⟨2, ![128, 320]⟩
abbrev S128 : Shape := ⟨1, ![128]⟩
abbrev S_ : Shape := ⟨0, ![]⟩

class Facts : Prop where
  bcast_S_S16x64x8192 : S_.BroadcastsInDim S16x64x8192 (![] : Fin 0 → Fin S16x64x8192.rank)
  reducesTo_S16x64x8192_S_d0_1_2 : S16x64x8192.ReducesTo [0, 1, 2] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x320 : S_.BroadcastsInDim S128x320 (![] : Fin 0 → Fin S128x320.rank)
  reducesTo_S128x320_S_d0_1 : S128x320.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S16x64x8192 .f32) (main_arg1 : FVec F S8192x8192 .f32) (main_arg2 : FVec F S128x320 .f32) (main_arg3 : FVec F S128 .f32) : IVec S_ 1 :=
  let main_v0 : FVec F S16x64x8192 .f32 := Host.absf main_arg0
  let main_cst : FVec F S_ .f32 := constant S_ .f32 0x7F800000#32
  let main_v1 : FVec F S16x64x8192 .f32 := broadcastInDim S16x64x8192 ![] bcast_S_S16x64x8192 main_cst
  let main_v2 : IVec S16x64x8192 1 := cmpf .olt main_v0 main_v1
  let main_c : IVec S_ 1 := constantI S_ 1 1#1
  let main_v3 : IVec S_ 1 := (fun x v => Host.reduce IntOp.andi x v reducesTo_S16x64x8192_S_d0_1_2 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x320 .f32 := Host.absf main_arg2
  let main_cst_2 : FVec F S_ .f32 := constant S_ .f32 0x7F800000#32
  let main_v10 : FVec F S128x320 .f32 := broadcastInDim S128x320 ![] bcast_S_S128x320 main_cst_2
  let main_v11 : IVec S128x320 1 := cmpf .olt main_v9 main_v10
  let main_c_3 : IVec S_ 1 := constantI S_ 1 1#1
  let main_v12 : IVec S_ 1 := (fun x v => Host.reduce IntOp.andi x v reducesTo_S128x320_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S16x64x8192 : Shape := ⟨3, ![16, 64, 8192]⟩
abbrev S8192x8192 : Shape := ⟨2, ![8192, 8192]⟩
abbrev S128x320 : Shape := ⟨2, ![128, 320]⟩
abbrev S128 : Shape := ⟨1, ![128]⟩
abbrev S8192x16x64 : Shape := ⟨3, ![8192, 16, 64]⟩
abbrev S8192x1024 : Shape := ⟨2, ![8192, 1024]⟩
abbrev S256x8192 : Shape := ⟨2, ![256, 8192]⟩
abbrev S256x1024 : Shape := ⟨2, ![256, 1024]⟩
abbrev S131072x64 : Shape := ⟨2, ![131072, 64]⟩
abbrev S128x64x5 : Shape := ⟨3, ![128, 64, 5]⟩
abbrev S5x64x128 : Shape := ⟨3, ![5, 64, 128]⟩
abbrev S1x128 : Shape := ⟨2, ![1, 128]⟩
abbrev S131072x128 : Shape := ⟨2, ![131072, 128]⟩
abbrev S4096x64 : Shape := ⟨2, ![4096, 64]⟩
abbrev S4096x128 : Shape := ⟨2, ![4096, 128]⟩
abbrev S1x64x128 : Shape := ⟨3, ![1, 64, 128]⟩
abbrev S64x128 : Shape := ⟨2, ![64, 128]⟩
abbrev S8192x16x128 : Shape := ⟨3, ![8192, 16, 128]⟩
abbrev S16x128x8192 : Shape := ⟨3, ![16, 128, 8192]⟩

abbrev nBuf : Space → Nat
  | .hbm => 26
  | .vmem => 42
  | .smem => 0
  | _ => 0

abbrev bufTy : (tb : Table) → Fin (tcTables nBuf tb) → BufTy
  | .hbm, ⟨0, _⟩ => ⟨S16x64x8192, .f32⟩
  | .hbm, ⟨1, _⟩ => ⟨S8192x8192, .f32⟩
  | .hbm, ⟨2, _⟩ => ⟨S128x320, .f32⟩
  | .hbm, ⟨3, _⟩ => ⟨S128, .f32⟩
  | .hbm, ⟨4, _⟩ => ⟨S8192x16x64, .f32⟩
  | .hbm, ⟨5, _⟩ => ⟨S8192x1024, .f32⟩
  | .hbm, ⟨6, _⟩ => ⟨S8192x8192, .bf16⟩
  | .hbm, ⟨7, _⟩ => ⟨S8192x1024, .bf16⟩
  | .hbm, ⟨8, _⟩ => ⟨S8192x1024, .f32⟩
  | .hbm, ⟨9, _⟩ => ⟨S8192x1024, .bf16⟩
  | .hbm, ⟨10, _⟩ => ⟨S8192x1024, .f32⟩
  | .hbm, ⟨11, _⟩ => ⟨S8192x1024, .bf16⟩
  | .hbm, ⟨12, _⟩ => ⟨S8192x1024, .f32⟩
  | .hbm, ⟨13, _⟩ => ⟨S8192x1024, .bf16⟩
  | .hbm, ⟨14, _⟩ => ⟨S8192x1024, .f32⟩
  | .hbm, ⟨15, _⟩ => ⟨S131072x64, .f32⟩
  | .hbm, ⟨16, _⟩ => ⟨S131072x64, .f32⟩
  | .hbm, ⟨17, _⟩ => ⟨S131072x64, .f32⟩
  | .hbm, ⟨18, _⟩ => ⟨S131072x64, .f32⟩
  | .hbm, ⟨19, _⟩ => ⟨S131072x64, .f32⟩
  | .hbm, ⟨20, _⟩ => ⟨S128x64x5, .f32⟩
  | .hbm, ⟨21, _⟩ => ⟨S5x64x128, .f32⟩
  | .hbm, ⟨22, _⟩ => ⟨S1x128, .f32⟩
  | .hbm, ⟨23, _⟩ => ⟨S131072x128, .f32⟩
  | .hbm, ⟨24, _⟩ => ⟨S8192x16x128, .f32⟩
  | .hbm, ⟨25, _⟩ => ⟨S16x128x8192, .f32⟩
  | .local _ .vmem, ⟨0, _⟩ => ⟨S256x8192, .bf16⟩
  | .local _ .vmem, ⟨1, _⟩ => ⟨S256x8192, .bf16⟩
  | .local _ .vmem, ⟨2, _⟩ => ⟨S8192x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x8192, .bf16⟩
  | .local _ .vmem, ⟨8, _⟩ => ⟨S256x8192, .bf16⟩
  | .local _ .vmem, ⟨9, _⟩ => ⟨S8192x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x8192, .bf16⟩
  | .local _ .vmem, ⟨15, _⟩ => ⟨S256x8192, .bf16⟩
  | .local _ .vmem, ⟨16, _⟩ => ⟨S8192x1024, .bf16⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x8192, .bf16⟩
  | .local _ .vmem, ⟨22, _⟩ => ⟨S256x8192, .bf16⟩
  | .local _ .vmem, ⟨23, _⟩ => ⟨S8192x1024, .bf16⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S4096x64, .f32⟩
  | .local _ .vmem, ⟨29, _⟩ => ⟨S4096x64, .f32⟩
  | .local _ .vmem, ⟨30, _⟩ => ⟨S4096x64, .f32⟩
  | .local _ .vmem, ⟨31, _⟩ => ⟨S4096x64, .f32⟩
  | .local _ .vmem, ⟨32, _⟩ => ⟨S4096x64, .f32⟩
  | .local _ .vmem, ⟨33, _⟩ => ⟨S4096x64, .f32⟩
  | .local _ .vmem, ⟨34, _⟩ => ⟨S4096x64, .f32⟩
  | .local _ .vmem, ⟨35, _⟩ => ⟨S4096x64, .f32⟩
  | .local _ .vmem, ⟨36, _⟩ => ⟨S4096x64, .f32⟩
  | .local _ .vmem, ⟨37, _⟩ => ⟨S4096x64, .f32⟩
  | .local _ .vmem, ⟨38, _⟩ => ⟨S5x64x128, .f32⟩
  | .local _ .vmem, ⟨39, _⟩ => ⟨S1x128, .f32⟩
  | .local _ .vmem, ⟨40, _⟩ => ⟨S4096x128, .f32⟩
  | .local _ .vmem, ⟨41, _⟩ => ⟨S4096x128, .f32⟩
  | _, _ => ⟨S16x64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc4_stg4_0 : Ref sig .tc := ⟨.vmem, 36, rfl⟩
abbrev cc4_stg4_1 : Ref sig .tc := ⟨.vmem, 37, rfl⟩
abbrev cc4_stg5_0 : Ref sig .tc := ⟨.vmem, 38, rfl⟩
abbrev cc4_stg6_0 : Ref sig .tc := ⟨.vmem, 39, rfl⟩
abbrev cc4_stg7_0 : Ref sig .tc := ⟨.vmem, 40, rfl⟩
abbrev cc4_stg7_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc4_sem4_0 : DmaSem sig := 36
abbrev cc4_sem4_1 : DmaSem sig := 37
abbrev cc4_sem5_0 : DmaSem sig := 38
abbrev cc4_sem6_0 : DmaSem sig := 39
abbrev cc4_sem7_0 : DmaSem sig := 40
abbrev cc4_sem7_1 : DmaSem sig := 41

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x8192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x8192 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8192x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4096x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S4096x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S4096x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S5x64x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S4096x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  transposes_S16x64x8192_S8192x16x64_2_0_1 : S16x64x8192.Transposes [2, 0, 1] S8192x16x64
  shapeCasts_S8192x16x64_S8192x1024 : S8192x16x64.ShapeCasts S8192x1024
  bitsLt_bf16_f32 : FTy.bits .bf16 < FTy.bits .f32
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S8192x1024_S8192x1024_0_0 : ∀ a, (![0, 0] : Fin 2 → Nat) a + S8192x1024.size a ≤ S8192x1024.size a
  h_S8192x1024 : 0 < S8192x1024.numel
  shapeCasts_S8192x1024_S8192x1024 : S8192x1024.ShapeCasts S8192x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  shapeCasts_S8192x1024_S131072x64 : S8192x1024.ShapeCasts S131072x64
  shapeCasts_S128x320_S128x64x5 : S128x320.ShapeCasts S128x64x5
  transposes_S128x64x5_S5x64x128_2_1_0 : S128x64x5.Transposes [2, 1, 0] S5x64x128
  shapeCasts_S128_S1x128 : S128.ShapeCasts S1x128
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S5x64x128_S1x64x128_0_0_0 : ∀ a, (![0, 0, 0] : Fin 3 → Nat) a + S1x64x128.size a ≤ S5x64x128.size a
  h_S1x64x128 : 0 < S1x64x128.numel
  shapeCasts_S1x64x128_S64x128 : S1x64x128.ShapeCasts S64x128
  inb_S5x64x128_S1x64x128_1_0_0 : ∀ a, (![1, 0, 0] : Fin 3 → Nat) a + S1x64x128.size a ≤ S5x64x128.size a
  inb_S5x64x128_S1x64x128_2_0_0 : ∀ a, (![2, 0, 0] : Fin 3 → Nat) a + S1x64x128.size a ≤ S5x64x128.size a
  inb_S5x64x128_S1x64x128_3_0_0 : ∀ a, (![3, 0, 0] : Fin 3 → Nat) a + S1x64x128.size a ≤ S5x64x128.size a
  inb_S5x64x128_S1x64x128_4_0_0 : ∀ a, (![4, 0, 0] : Fin 3 → Nat) a + S1x64x128.size a ≤ S5x64x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  shapeCasts_S131072x128_S8192x16x128 : S131072x128.ShapeCasts S8192x16x128
  transposes_S8192x16x128_S16x128x8192_1_2_0 : S8192x16x128.Transposes [1, 2, 0] S16x128x8192
  dot_S256x8192_S8192x1024_S256x1024_1_0_0_1_n_n_wf : DotDims.WF S256x8192 S8192x1024 S256x1024 [1] [0] [0] [1] [] []
  dot_S4096x64_S64x128_S4096x128_1_0_0_1_n_n_wf : DotDims.WF S4096x64 S64x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .bf16 = 32 ∨ (Rect.block (s := S8192x8192) S256x8192.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x1024.size a ≤ S8192x1024.size a
  hwx0_1 : ∀ i : grid0.Coords, EltTy.bits .bf16 = 32 ∨ (Rect.block (s := S8192x1024) S8192x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S8192x1024.size a
  hwx0_3 : ∀ i : grid0.Coords, EltTy.bits .f32 = 32 ∨ (Rect.block (s := S8192x1024) S256x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S8192x8192.size a
  hwx1_0 : ∀ i : grid1.Coords, EltTy.bits .bf16 = 32 ∨ (Rect.block (s := S8192x8192) S256x8192.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x1024.size a ≤ S8192x1024.size a
  hwx1_1 : ∀ i : grid1.Coords, EltTy.bits .bf16 = 32 ∨ (Rect.block (s := S8192x1024) S8192x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S8192x1024.size a
  hwx1_2 : ∀ i : grid1.Coords, EltTy.bits .f32 = 32 ∨ (Rect.block (s := S8192x1024) S256x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S8192x1024.size a
  hwx1_3 : ∀ i : grid1.Coords, EltTy.bits .f32 = 32 ∨ (Rect.block (s := S8192x1024) S256x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x8192.size a ≤ S8192x8192.size a
  hwx2_0 : ∀ i : grid2.Coords, EltTy.bits .bf16 = 32 ∨ (Rect.block (s := S8192x8192) S256x8192.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x1024.size a ≤ S8192x1024.size a
  hwx2_1 : ∀ i : grid2.Coords, EltTy.bits .bf16 = 32 ∨ (Rect.block (s := S8192x1024) S8192x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x1024.size a ≤ S8192x1024.size a
  hwx2_2 : ∀ i : grid2.Coords, EltTy.bits .f32 = 32 ∨ (Rect.block (s := S8192x1024) S256x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x1024.size a ≤ S8192x1024.size a
  hwx2_3 : ∀ i : grid2.Coords, EltTy.bits .f32 = 32 ∨ (Rect.block (s := S8192x1024) S256x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x8192.size a ≤ S8192x8192.size a
  hwx3_0 : ∀ i : grid3.Coords, EltTy.bits .bf16 = 32 ∨ (Rect.block (s := S8192x8192) S256x8192.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x1024.size a ≤ S8192x1024.size a
  hwx3_1 : ∀ i : grid3.Coords, EltTy.bits .bf16 = 32 ∨ (Rect.block (s := S8192x1024) S8192x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x1024.size a ≤ S8192x1024.size a
  hwx3_2 : ∀ i : grid3.Coords, EltTy.bits .f32 = 32 ∨ (Rect.block (s := S8192x1024) S256x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x1024.size a ≤ S8192x1024.size a
  hwx3_3 : ∀ i : grid3.Coords, EltTy.bits .f32 = 32 ∨ (Rect.block (s := S8192x1024) S256x1024.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x64.size a ≤ S131072x64.size a
  hwx4_0 : ∀ i : grid4.Coords, EltTy.bits .f32 = 32 ∨ (Rect.block (s := S131072x64) S4096x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x64.size a ≤ S131072x64.size a
  hwx4_1 : ∀ i : grid4.Coords, EltTy.bits .f32 = 32 ∨ (Rect.block (s := S131072x64) S4096x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4096x64.size a ≤ S131072x64.size a
  hwx4_2 : ∀ i : grid4.Coords, EltTy.bits .f32 = 32 ∨ (Rect.block (s := S131072x64) S4096x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4096x64.size a ≤ S131072x64.size a
  hwx4_3 : ∀ i : grid4.Coords, EltTy.bits .f32 = 32 ∨ (Rect.block (s := S131072x64) S4096x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4096x64.size a ≤ S131072x64.size a
  hwx4_4 : ∀ i : grid4.Coords, EltTy.bits .f32 = 32 ∨ (Rect.block (s := S131072x64) S4096x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S5x64x128.size a ≤ S5x64x128.size a
  hwx4_5 : ∀ i : grid4.Coords, EltTy.bits .f32 = 32 ∨ (Rect.block (s := S5x64x128) S5x64x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S4096x128.size a ≤ S131072x128.size a
  hwx4_7 : ∀ i : grid4.Coords, EltTy.bits .f32 = 32 ∨ (Rect.block (s := S131072x128) S4096x128.size (cc4_transform_7 i) (hinb4_7 i)).WholeWords (EltTy.packing .f32)

variable [Facts₀]

def dot_S256x8192_S8192x1024_S256x1024_1_0_0_1_n_n : DotDims S256x8192 S8192x1024 S256x1024 where
  lhsContracting := [1]
  rhsContracting := [0]
  lhsNonContracting := [0]
  rhsNonContracting := [1]
  lhsBatch := []
  rhsBatch := []
  wf := dot_S256x8192_S8192x1024_S256x1024_1_0_0_1_n_n_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf

abbrev win0_0 : Pipeline.Window sig grid0 :=
  Pipeline.Window.ofSpec (Memref.whole main_v2) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S8192x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S8192x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S256x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S8192x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S256x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v8) S256x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v2) S256x8192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S8192x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v6) S256x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v10) S256x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v11) S4096x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v12) S4096x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v13) S4096x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v14) S4096x64.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v15) S4096x64.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v17) S5x64x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v18) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v19) S4096x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S16x64x8192 : Shape := ⟨3, ![16, 64, 8192]⟩
abbrev S8192x8192 : Shape := ⟨2, ![8192, 8192]⟩
abbrev S128x320 : Shape := ⟨2, ![128, 320]⟩
abbrev S128 : Shape := ⟨1, ![128]⟩
abbrev S8192x64x16 : Shape := ⟨3, ![8192, 64, 16]⟩
abbrev S8192x1024 : Shape := ⟨2, ![8192, 1024]⟩
abbrev S_ : Shape := ⟨0, ![]⟩
abbrev S1x8192x1024 : Shape := ⟨3, ![1, 8192, 1024]⟩
abbrev S5x8192x1024 : Shape := ⟨3, ![5, 8192, 1024]⟩
abbrev S5x8192x64x16 : Shape := ⟨4, ![5, 8192, 64, 16]⟩
abbrev S16x8192x64x5 : Shape := ⟨4, ![16, 8192, 64, 5]⟩
abbrev S131072x320 : Shape := ⟨2, ![131072, 320]⟩
abbrev S320x128 : Shape := ⟨2, ![320, 128]⟩
abbrev S131072x128 : Shape := ⟨2, ![131072, 128]⟩
abbrev S1x128 : Shape := ⟨2, ![1, 128]⟩
abbrev S16x8192x128 : Shape := ⟨3, ![16, 8192, 128]⟩
abbrev S16x128x8192 : Shape := ⟨3, ![16, 128, 8192]⟩

abbrev nBuf : Space → Nat
  | .hbm => 38
  | .vmem => 0
  | .smem => 0
  | _ => 0

abbrev bufTy : (tb : Table) → Fin (tcTables nBuf tb) → BufTy
  | .hbm, ⟨0, _⟩ => ⟨S16x64x8192, .f32⟩
  | .hbm, ⟨1, _⟩ => ⟨S8192x8192, .f32⟩
  | .hbm, ⟨2, _⟩ => ⟨S128x320, .f32⟩
  | .hbm, ⟨3, _⟩ => ⟨S128, .f32⟩
  | .hbm, ⟨4, _⟩ => ⟨S8192x64x16, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S1x8192x1024, .f32⟩
  | .hbm, ⟨23, _⟩ => ⟨S1x8192x1024, .f32⟩
  | .hbm, ⟨24, _⟩ => ⟨S1x8192x1024, .f32⟩
  | .hbm, ⟨25, _⟩ => ⟨S1x8192x1024, .f32⟩
  | .hbm, ⟨26, _⟩ => ⟨S1x8192x1024, .f32⟩
  | .hbm, ⟨27, _⟩ => ⟨S5x8192x1024, .f32⟩
  | .hbm, ⟨28, _⟩ => ⟨S5x8192x64x16, .f32⟩
  | .hbm, ⟨29, _⟩ => ⟨S16x8192x64x5, .f32⟩
  | .hbm, ⟨30, _⟩ => ⟨S131072x320, .f32⟩
  | .hbm, ⟨31, _⟩ => ⟨S320x128, .f32⟩
  | .hbm, ⟨32, _⟩ => ⟨S131072x128, .f32⟩
  | .hbm, ⟨33, _⟩ => ⟨S1x128, .f32⟩
  | .hbm, ⟨34, _⟩ => ⟨S131072x128, .f32⟩
  | .hbm, ⟨35, _⟩ => ⟨S131072x128, .f32⟩
  | .hbm, ⟨36, _⟩ => ⟨S16x8192x128, .f32⟩
  | .hbm, ⟨37, _⟩ => ⟨S16x128x8192, .f32⟩
  | _, _ => ⟨S16x64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]

class Facts₀ : Prop where
  transposes_S16x64x8192_S8192x64x16_2_1_0 : S16x64x8192.Transposes [2, 1, 0] S8192x64x16
  shapeCasts_S8192x64x16_S8192x1024 : S8192x64x16.ShapeCasts S8192x1024
  bcast_S_S8192x1024 : S_.BroadcastsInDim S8192x1024 (![] : Fin 0 → Fin S8192x1024.rank)
  bcast_S8192x1024_S1x8192x1024_1_2 : S8192x1024.BroadcastsInDim S1x8192x1024 (![1, 2] : Fin 2 → Fin S1x8192x1024.rank)
  concatenates_S1x8192x1024_S1x8192x1024_S1x8192x1024_S1x8192x1024_S1x8192x1024_S5x8192x1024_d0 : Shape.Concatenates [S1x8192x1024, S1x8192x1024, S1x8192x1024, S1x8192x1024, S1x8192x1024] S5x8192x1024 0
  shapeCasts_S5x8192x1024_S5x8192x64x16 : S5x8192x1024.ShapeCasts S5x8192x64x16
  transposes_S5x8192x64x16_S16x8192x64x5_3_1_2_0 : S5x8192x64x16.Transposes [3, 1, 2, 0] S16x8192x64x5
  shapeCasts_S16x8192x64x5_S131072x320 : S16x8192x64x5.ShapeCasts S131072x320
  transposes_S128x320_S320x128_1_0 : S128x320.Transposes [1, 0] S320x128
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  shapeCasts_S131072x128_S16x8192x128 : S131072x128.ShapeCasts S16x8192x128
  transposes_S16x8192x128_S16x128x8192_0_2_1 : S16x8192x128.Transposes [0, 2, 1] S16x128x8192
  dot_S8192x8192_S8192x1024_S8192x1024_1_0_0_1_n_n_wf : DotDims.WF S8192x8192 S8192x1024 S8192x1024 [1] [0] [0] [1] [] []
  dot_S131072x320_S320x128_S131072x128_1_0_0_1_n_n_wf : DotDims.WF S131072x320 S320x128 S131072x128 [1] [0] [0] [1] [] []

variable [Facts₀]

def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf
def dot_S131072x320_S320x128_S131072x128_1_0_0_1_n_n : DotDims S131072x320 S320x128 S131072x128 where
  lhsContracting := [1]
  rhsContracting := [0]
  lhsNonContracting := [0]
  rhsNonContracting := [1]
  lhsBatch := []
  rhsBatch := []
  wf := dot_S131072x320_S320x128_S131072x128_1_0_0_1_n_n_wf

class Facts : Prop extends Facts₀ where

variable [Facts]
-- ==== Proof.RunOut.lean ====
/-
  The idealized kernel's run with its RESULT named.  @main is eleven segments — six stretches of host operations
  around five pipelined regions — and the thread state at each boundary says that every unscoped buffer holds the
  boundary's contents: the launch memory pushed through the host stretches (each operation applied to its
  operands) and through the regions (each region's arrays at what its write-backs leave).  The last boundary's
  contents are `Gen.W11`; every weakly fair execution terminates in a memory that agrees with it on every
  unscoped buffer, in particular on the result buffer and on the four argument arrays, which no segment writes.
-/
import proofs.«165978_j16449724743711_2_alg».proof.Proof.Gen.KernelIdeal.Frame

set_option maxRecDepth 16384

noncomputable section

namespace Cert.KernelIdeal.RunOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run_out : θ_run defs (onTc (τ := τ) (main (F := F))) ⟨m, fun _ => 0, ρ⟩ (fun r => ∀ c : Dev nD,
      r.2.mem ((c.tc : Thread nD τ).loc main_v21) = W11 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v21 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c)⟩)

end Cert.KernelIdeal.RunOut

end
-- ==== Proof.Spec.lean ====
/-
  The mathematics of the certificate, free of any program.

  A graph signal is an extended real for every (vertex v, batch b, channel c).  The Laplacian `L` acts on a
  signal vertex-wise, `(L·X)(v,b,c) = ∑ₖ L(v,k) · X(k,b,c)`, independently for every (b, c).  The Chebyshev
  signals are `T₀ = x`, `T₁ = L·T₀`, `Tₙ₊₁ = 2·(L·Tₙ) − Tₙ₋₁` (n = 1, 2, 3), and the result is the linear layer
  `out(b,o,v) = ∑_{j < 320} T_{j mod 5}(v, b, j div 5) · w(o, j) + bias(o)`: the 320 features of a vertex are
  its 64 channels, each with its 5 Chebyshev orders, channel-major.

  Both programs compute this function; they differ in how they lay a signal out as a matrix (which of b, c
  is the slow axis of the 1024 columns), in the spelling of a step (`α·(L·X) + β·P` with (α, β) = (1, 0) or
  (2, −1), against `2·(L·X) − P`), and in the order in which the 320 products are added (five sums of 64
  against one sum of 320).  The laws that join them are stated here: they are laws of the commutative monoid
  (EReal, +) and of multiplication by 0, 1 and −1, and hold at the infinities as well.
-/
import Idealize.ShloMosaic.PureOps.Ideal
import Idealize.ShloMosaic.PureOps.Ideal.Laws
import Idealize.ShloMosaic.Lib.ValueIdx

noncomputable section

namespace Cert.ChebSpec

open Idealize.ShloMosaic Idealize.ShloMosaic.ValueIdx

/-- A graph signal: an extended real per (vertex, batch, channel). -/
abbrev Signal := Fin 8192 → Fin 16 → Fin 64 → EReal

/-- The literal `2.0`, kept as its word: both programs spell it, so it is never evaluated. -/
abbrev two : EReal := Ideal.ofBits .f32 0x40000000#32

/-- The word of `1.0` denotes `1`. -/
theorem ofBits_one : Ideal.ofBits .f32 0x3F800000#32 = 1 := by
  simp [Ideal.ofBits, Ideal.ieee, -EReal.coe_mul]; norm_num

/-- The word of `-1.0` denotes `-1`. -/
theorem ofBits_neg_one : Ideal.ofBits .f32 0xBF800000#32 = -1 := by
  simp [Ideal.ofBits, Ideal.ieee, -EReal.coe_mul]; norm_num

/-- The input `x[b, c, v]` as a signal. -/
def signal0 (inp : (⟨3, ![16, 64, 8192]⟩ : Shape).Idx → EReal) : Signal := fun v b c => inp (ix3 b c v)

/-- The Laplacian applied to a signal, vertex-wise. -/
def lap (L : (⟨2, ![8192, 8192]⟩ : Shape).Idx → EReal) (X : Signal) : Signal :=
  fun v b c => ∑ k : Fin 8192, L (ix2 v k) * X k b c

/-- One step of the recurrence as the reference spells it: `2·(L·X) − P`. -/
def next (L : (⟨2, ![8192, 8192]⟩ : Shape).Idx → EReal) (X P : Signal) : Signal :=
  fun v b c => two * lap L X v b c - P v b c

/-- One step as the kernel spells it: `α·(L·X) + β·P`. -/
def step (α β : EReal) (L : (⟨2, ![8192, 8192]⟩ : Shape).Idx → EReal) (X P : Signal) : Signal :=
  fun v b c => α * lap L X v b c + β * P v b c

section
variable (L : (⟨2, ![8192, 8192]⟩ : Shape).Idx → EReal) (inp : (⟨3, ![16, 64, 8192]⟩ : Shape).Idx → EReal)

def T0 : Signal := signal0 inp
def T1 : Signal := lap L (T0 inp)
def T2 : Signal := next L (T1 L inp) (T0 inp)
def T3 : Signal := next L (T2 L inp) (T1 L inp)
def T4 : Signal := next L (T3 L inp) (T2 L inp)

/-- The five Chebyshev signals, by order. -/
def T : Fin 5 → Signal
  | ⟨0, _⟩ => T0 inp
  | ⟨1, _⟩ => T1 L inp
  | ⟨2, _⟩ => T2 L inp
  | ⟨3, _⟩ => T3 L inp
  | ⟨4, _⟩ => T4 L inp
end

/-- Feature `j < 320` of a vertex is channel `j div 5` at Chebyshev order `j mod 5`. -/
abbrev chan (j : Fin 320) : Fin 64 := ⟨j.val / 5, by have := j.isLt; omega⟩
abbrev order (j : Fin 320) : Fin 5 := ⟨j.val % 5, by omega⟩

/-- THE RESULT, index by index: `out[b, o, v] = ∑_{j<320} T_{j mod 5}(v, b, j div 5) · w[o, j] + bias[o]`. -/
def G (inp : (⟨3, ![16, 64, 8192]⟩ : Shape).Idx → EReal) (L : (⟨2, ![8192, 8192]⟩ : Shape).Idx → EReal)
    (w : (⟨2, ![128, 320]⟩ : Shape).Idx → EReal) (bias : (⟨1, ![128]⟩ : Shape).Idx → EReal) :
    (⟨3, ![16, 128, 8192]⟩ : Shape).Idx → EReal :=
  fun i => (∑ j : Fin 320, T L inp (order j) (i 2) (i 0) (chan j) * w (ix2 (i 1) j)) + bias (ix1 (i 1))

/-! ## The laws joining the two spellings -/

/-- The first step: `1·(L·X) + 0·P = L·X`, whatever `P` is (`0 · ±∞ = 0` on the extended reals). -/
theorem step_one_zero (L : (⟨2, ![8192, 8192]⟩ : Shape).Idx → EReal) (X P : Signal) :
    step 1 0 L X P = lap L X := by
  funext v b c
  simp only [step, one_mul, zero_mul, add_zero]

/-- A later step: `2·(L·X) + (−1)·P = 2·(L·X) − P`. -/
theorem step_two_neg_one (L : (⟨2, ![8192, 8192]⟩ : Shape).Idx → EReal) (X P : Signal) :
    step two (-1) L X P = next L X P := by
  funext v b c
  simp only [step, next, neg_one_mul, sub_eq_add_neg]

/-- A sum over the 320 features is the sum over the five orders of the sums over the 64 channels. -/
theorem sum_features (f : Fin 5 → Fin 64 → EReal) :
    ∑ j : Fin 320, f (order j) (chan j) = ∑ k : Fin 5, ∑ c : Fin 64, f k c := by
  rw [Finset.sum_comm, ← Fintype.sum_prod_type', ← Equiv.sum_comp (finProdFinEquiv (m := 64) (n := 5))]
  refine Finset.sum_congr rfl fun p _ => ?_
  obtain ⟨c, k⟩ := p
  have hc := c.isLt
  have hk := k.isLt
  have h1 : order (finProdFinEquiv (c, k)) = k := Fin.ext (by
    show (k.val + 5 * c.val) % 5 = k.val
    omega)
  have h2 : chan (finProdFinEquiv (c, k)) = c := Fin.ext (by
    show (k.val + 5 * c.val) / 5 = c.val
    omega)
  rw [h1, h2]

/-! ## The two kinds of region, as functions of whole arrays -/

/-- One recurrence step on matrices: `out[r, j] = α · ∑ₖ L[r, k] · X[k, j] + β · P[r, j]`
    (rows are vertices; the 1024 columns are the (batch, channel) pairs in whatever order the program lays them). -/
def chebArr (α β : EReal) (L : (⟨2, ![8192, 8192]⟩ : Shape).Idx → EReal)
    (X P : (⟨2, ![8192, 1024]⟩ : Shape).Idx → EReal) : (⟨2, ![8192, 1024]⟩ : Shape).Idx → EReal :=
  fun i => α * (∑ k : Fin 8192, L (ix2 (i 0) k) * X (ix2 k (i 1))) + β * P i

/-- The linear layer on matrices, the five orders accumulated one after the other from zero, then the bias row:
    `y[r, o] = ((((0 + ∑_c R₀[r,c]·W[0,c,o]) + ∑_c R₁[r,c]·W[1,c,o]) + …) + ∑_c R₄[r,c]·W[4,c,o]) + b[0,o]`. -/
def finalArr (R0 R1 R2 R3 R4 : (⟨2, ![131072, 64]⟩ : Shape).Idx → EReal)
    (W : (⟨3, ![5, 64, 128]⟩ : Shape).Idx → EReal) (b : (⟨2, ![1, 128]⟩ : Shape).Idx → EReal) :
    (⟨2, ![131072, 128]⟩ : Shape).Idx → EReal :=
  fun i => (((((0 + ∑ c : Fin 64, R0 (ix2 (i 0) c) * W (ix3 (0 : Fin 5) c (i 1)))
      + ∑ c : Fin 64, R1 (ix2 (i 0) c) * W (ix3 (1 : Fin 5) c (i 1)))
      + ∑ c : Fin 64, R2 (ix2 (i 0) c) * W (ix3 (2 : Fin 5) c (i 1)))
      + ∑ c : Fin 64, R3 (ix2 (i 0) c) * W (ix3 (3 : Fin 5) c (i 1)))
      + ∑ c : Fin 64, R4 (ix2 (i 0) c) * W (ix3 (4 : Fin 5) c (i 1)))
    + b (ix2 (0 : Fin 1) (i 1))

end Cert.ChebSpec

end
-- ==== Proof.Arrays.lean ====
/-
  The idealized kernel's result as a composition of whole-array functions of its four arguments: the
  (8192 × 1024) signal matrix X₀ (rows: vertices; columns: batch-major (b, c)), the four recurrence steps X₁ … X₄
  on matrices, their (131072 × 64) row views, the (5 × 64 × 128) weights, the bias row, the linear layer Y, and
  the final re-layout to (16, 128, 8192).
-/
import proofs.«165978_j16449724743711_2_alg».proof.KernelIdeal
import proofs.«165978_j16449724743711_2_alg».proof.Proof.Gen.KernelIdeal
import proofs.«165978_j16449724743711_2_alg».proof.Proof.Spec

noncomputable section

namespace Cert.KernelIdeal.Arrays

open Cert.KernelIdeal Cert.KernelIdeal.Gen Cert.ChebSpec Idealize.ShloMosaic

section Arrays
variable (a0 : FVec Ideal S16x64x8192 .f32) (a1 : FVec Ideal S8192x8192 .f32) (a2 : FVec Ideal S128x320 .f32) (a3 : FVec Ideal S128 .f32)

/-- The signal matrix: `X₀[v, b·64 + c] = x[b, c, v]`. -/
def X0 : FVec Ideal S8192x1024 .f32 :=
  shapeCast S8192x1024 (transpose S8192x16x64 [2, 0, 1] a0 transposes_S16x64x8192_S8192x16x64_2_0_1) shapeCasts_S8192x16x64_S8192x1024
/-- The Laplacian after its change of format (the identity on the extended reals). -/
def Lb : FVec Ideal S8192x8192 .bf16 := truncf .bf16 a1 bitsLt_bf16_f32
/-- A signal matrix after its change of format. -/
abbrev cut (X : FVec Ideal S8192x1024 .f32) : FVec Ideal S8192x1024 .bf16 :=
  truncf .bf16 X bitsLt_bf16_f32
def X1 : FVec Ideal S8192x1024 .f32 :=
  chebArr (Ideal.ofBits .f32 0x3F800000#32) (Ideal.ofBits .f32 0x00000000#32) (Lb a1) (cut (X0 a0)) (X0 a0)
def X2 : FVec Ideal S8192x1024 .f32 :=
  chebArr (Ideal.ofBits .f32 0x40000000#32) (Ideal.ofBits .f32 0xBF800000#32) (Lb a1) (cut (X1 a0 a1)) (X0 a0)
def X3 : FVec Ideal S8192x1024 .f32 :=
  chebArr (Ideal.ofBits .f32 0x40000000#32) (Ideal.ofBits .f32 0xBF800000#32) (Lb a1) (cut (X2 a0 a1)) (X1 a0 a1)
def X4 : FVec Ideal S8192x1024 .f32 :=
  chebArr (Ideal.ofBits .f32 0x40000000#32) (Ideal.ofBits .f32 0xBF800000#32) (Lb a1) (cut (X3 a0 a1)) (X2 a0 a1)
/-- A signal matrix viewed as (131072 × 64): row `v·16 + b`, column `c`. -/
abbrev rows (X : FVec Ideal S8192x1024 .f32) : FVec Ideal S131072x64 .f32 :=
  shapeCast S131072x64 X shapeCasts_S8192x1024_S131072x64
/-- The weights as (5 × 64 × 128): `W[k, c, o] = w[o, c·5 + k]`. -/
def Wt : FVec Ideal S5x64x128 .f32 :=
  transpose S5x64x128 [2, 1, 0] (shapeCast S128x64x5 a2 shapeCasts_S128x320_S128x64x5) transposes_S128x64x5_S5x64x128_2_1_0
/-- The bias as a (1 × 128) row. -/
def B2 : FVec Ideal S1x128 .f32 := shapeCast S1x128 a3 shapeCasts_S128_S1x128
/-- The linear layer on the row views. -/
def Y : FVec Ideal S131072x128 .f32 :=
  finalArr (rows (X0 a0)) (rows (X1 a0 a1)) (rows (X2 a0 a1)) (rows (X3 a0 a1)) (rows (X4 a0 a1)) (Wt a2) (B2 a3)
/-- THE KERNEL'S RESULT: `out[b, o, v] = Y[v·16 + b, o]`. -/
def OUT : FVec Ideal S16x128x8192 .f32 :=
  transpose S16x128x8192 [1, 2, 0] (shapeCast S8192x16x128 (Y a0 a1 a2 a3) shapeCasts_S131072x128_S8192x16x128) transposes_S8192x16x128_S16x128x8192_1_2_0
end Arrays

end Cert.KernelIdeal.Arrays

end
-- ==== Proof.Walk.lean ====
/-
  The idealized kernel's result buffer as a function of its four argument arrays.

  Along @main the buffers' contents are pushed from the launch memory through six stretches of host operations
  and five pipelined regions.  A host operation leaves its function of its operands in its result buffer and
  every other buffer alone; a region leaves in its output's array what its write-backs fold to — the region's
  whole-array function of its input arrays — and every other array, its own inputs included, alone.  Reading the
  last boundary's contents back through these eleven steps at the buffers that matter gives the result as the
  composition `Arrays.OUT` of whole-array functions (Proof/Arrays.lean).
-/
import proofs.«165978_j16449724743711_2_alg».proof.Proof.Gen.KernelIdeal.Frame
import proofs.«165978_j16449724743711_2_alg».proof.Proof.Spec
import proofs.«165978_j16449724743711_2_alg».proof.Proof.Arrays
import Idealize.ShloMosaic.Lib.StableHlo.Run

set_option maxRecDepth 16384

noncomputable section

namespace Cert.KernelIdeal.Walk

open Cert.KernelIdeal Cert.KernelIdeal.Gen Cert.KernelIdeal.Arrays Cert.ChebSpec
open Idealize.ShloMosaic Idealize.ShloMosaic.TcCoe Idealize.SL.Sem Idealize.ShloMosaic.StableHlo
open Idealize.ShloMosaic.Pipeline (Dat)

section Walk
variable (m : (ℓ : Loc nD τ sig) → Buf (Elt Ideal) ℓ) (ρ : Dev nD → PrngReg) (c : Dev nD)
-- what each region's write-backs fold to, as a function of the arrays the region finds (proved per region, elsewhere)
variable
  (h0 : ∀ (V : (c : Dev nD) → (b : Ref sig .tc) → Buf (Elt Ideal) ((c : Thread nD τ).loc b)) (c : Dev nD),
    (dat0 (F := Ideal) V c).arrAt 3 cfg0.N = chebArr (Ideal.ofBits .f32 0x3F800000#32) (Ideal.ofBits .f32 0x00000000#32) (V c main_v2) (V c main_v3) (V c main_v1))
  (h1 : ∀ (V : (c : Dev nD) → (b : Ref sig .tc) → Buf (Elt Ideal) ((c : Thread nD τ).loc b)) (c : Dev nD),
    (dat1 (F := Ideal) V c).arrAt 3 cfg1.N = chebArr (Ideal.ofBits .f32 0x40000000#32) (Ideal.ofBits .f32 0xBF800000#32) (V c main_v2) (V c main_v5) (V c main_v1))
  (h2 : ∀ (V : (c : Dev nD) → (b : Ref sig .tc) → Buf (Elt Ideal) ((c : Thread nD τ).loc b)) (c : Dev nD),
    (dat2 (F := Ideal) V c).arrAt 3 cfg2.N = chebArr (Ideal.ofBits .f32 0x40000000#32) (Ideal.ofBits .f32 0xBF800000#32) (V c main_v2) (V c main_v7) (V c main_v4))
  (h3 : ∀ (V : (c : Dev nD) → (b : Ref sig .tc) → Buf (Elt Ideal) ((c : Thread nD τ).loc b)) (c : Dev nD),
    (dat3 (F := Ideal) V c).arrAt 3 cfg3.N = chebArr (Ideal.ofBits .f32 0x40000000#32) (Ideal.ofBits .f32 0xBF800000#32) (V c main_v2) (V c main_v9) (V c main_v6))
  (h4 : ∀ (V : (c : Dev nD) → (b : Ref sig .tc) → Buf (Elt Ideal) ((c : Thread nD τ).loc b)) (c : Dev nD),
    (dat4 (F := Ideal) V c).arrAt 7 cfg4.N = finalArr (V c main_v11) (V c main_v12) (V c main_v13) (V c main_v14) (V c main_v15) (V c main_v17) (V c main_v18))
include h0 h1 h2 h3 h4

/-! ## Boundary 1: after the first host stretch (the input transposed and reshaped, the two changes of format) -/

theorem w1_v1 : W1 m ρ c (Proc.devRef .tc main_v1) = (X0 (m ((c : Thread nD τ).loc main_arg0))) := by
  show StableHlo.after hostOps0 (W0 m ρ c) (Proc.devRef .tc main_v1) = _
  dsimp only [hostOps0]
  after_results
  all_goals rfl

theorem w1_v2 : W1 m ρ c (Proc.devRef .tc main_v2) = (Lb (m ((c : Thread nD τ).loc main_arg1))) := by
  show StableHlo.after hostOps0 (W0 m ρ c) (Proc.devRef .tc main_v2) = _
  dsimp only [hostOps0]
  after_results
  all_goals rfl

theorem w1_v3 : W1 m ρ c (Proc.devRef .tc main_v3) = (cut (X0 (m ((c : Thread nD τ).loc main_arg0)))) := by
  show StableHlo.after hostOps0 (W0 m ρ c) (Proc.devRef .tc main_v3) = _
  dsimp only [hostOps0]
  after_results
  all_goals rfl

theorem w1_arg2 : W1 m ρ c (Proc.devRef .tc main_arg2) = (m ((c : Thread nD τ).loc main_arg2)) := by
  show StableHlo.after hostOps0 (W0 m ρ c) (Proc.devRef .tc main_arg2) = _
  dsimp only [hostOps0]
  after_results
  all_goals rfl

theorem w1_arg3 : W1 m ρ c (Proc.devRef .tc main_arg3) = (m ((c : Thread nD τ).loc main_arg3)) := by
  show StableHlo.after hostOps0 (W0 m ρ c) (Proc.devRef .tc main_arg3) = _
  dsimp only [hostOps0]
  after_results
  all_goals rfl

/-! ## Boundary 2: after region 0 (the first step: X₁) -/

theorem w2_v4 : W2 m ρ c (Proc.devRef .tc main_v4) = (X1 (m ((c : Thread nD τ).loc main_arg0)) (m ((c : Thread nD τ).loc main_arg1))) := by
  refine (W2_arr m ρ c 3).trans ((h0 (V1 m ρ) c).trans ?_)
  show chebArr _ _ (W1 m ρ c (Proc.devRef .tc main_v2)) (W1 m ρ c (Proc.devRef .tc main_v3)) (W1 m ρ c (Proc.devRef .tc main_v1)) = _
  rw [(w1_v2 m ρ c h0 h1 h2 h3 h4), (w1_v3 m ρ c h0 h1 h2 h3 h4), (w1_v1 m ρ c h0 h1 h2 h3 h4)]
  all_goals rfl

theorem w2_v1 : W2 m ρ c (Proc.devRef .tc main_v1) = (X0 (m ((c : Thread nD τ).loc main_arg0))) :=
  ((W2_arr m ρ c 2).trans (((dat0 (V1 m ρ) c).arrAt_in 2 rfl _).trans (A_eq0 (V1 m ρ) c 2))).trans (w1_v1 m ρ c h0 h1 h2 h3 h4)

theorem w2_v2 : W2 m ρ c (Proc.devRef .tc main_v2) = (Lb (m ((c : Thread nD τ).loc main_arg1))) :=
  ((W2_arr m ρ c 0).trans (((dat0 (V1 m ρ) c).arrAt_in 0 rfl _).trans (A_eq0 (V1 m ρ) c 0))).trans (w1_v2 m ρ c h0 h1 h2 h3 h4)

theorem w2_arg2 : W2 m ρ c (Proc.devRef .tc main_arg2) = (m ((c : Thread nD τ).loc main_arg2)) :=
  (W2_of_ne m ρ c main_arg2 (by decide)).trans (w1_arg2 m ρ c h0 h1 h2 h3 h4)

theorem w2_arg3 : W2 m ρ c (Proc.devRef .tc main_arg3) = (m ((c : Thread nD τ).loc main_arg3)) :=
  (W2_of_ne m ρ c main_arg3 (by decide)).trans (w1_arg3 m ρ c h0 h1 h2 h3 h4)

/-! ## Boundary 3 -/

theorem w3_v5 : W3 m ρ c (Proc.devRef .tc main_v5) = (cut (X1 (m ((c : Thread nD τ).loc main_arg0)) (m ((c : Thread nD τ).loc main_arg1)))) := by
  show StableHlo.after hostOps1 (W2 m ρ c) (Proc.devRef .tc main_v5) = _
  dsimp only [hostOps1]
  after_results
  all_goals rw [(w2_v4 m ρ c h0 h1 h2 h3 h4)]
  all_goals rfl

theorem w3_v1 : W3 m ρ c (Proc.devRef .tc main_v1) = (X0 (m ((c : Thread nD τ).loc main_arg0))) := by
  show StableHlo.after hostOps1 (W2 m ρ c) (Proc.devRef .tc main_v1) = _
  dsimp only [hostOps1]
  after_results
  all_goals exact (w2_v1 m ρ c h0 h1 h2 h3 h4)

theorem w3_v2 : W3 m ρ c (Proc.devRef .tc main_v2) = (Lb (m ((c : Thread nD τ).loc main_arg1))) := by
  show StableHlo.after hostOps1 (W2 m ρ c) (Proc.devRef .tc main_v2) = _
  dsimp only [hostOps1]
  after_results
  all_goals exact (w2_v2 m ρ c h0 h1 h2 h3 h4)

theorem w3_v4 : W3 m ρ c (Proc.devRef .tc main_v4) = (X1 (m ((c : Thread nD τ).loc main_arg0)) (m ((c : Thread nD τ).loc main_arg1))) := by
  show StableHlo.after hostOps1 (W2 m ρ c) (Proc.devRef .tc main_v4) = _
  dsimp only [hostOps1]
  after_results
  all_goals exact (w2_v4 m ρ c h0 h1 h2 h3 h4)

theorem w3_arg2 : W3 m ρ c (Proc.devRef .tc main_arg2) = (m ((c : Thread nD τ).loc main_arg2)) := by
  show StableHlo.after hostOps1 (W2 m ρ c) (Proc.devRef .tc main_arg2) = _
  dsimp only [hostOps1]
  after_results
  all_goals exact (w2_arg2 m ρ c h0 h1 h2 h3 h4)

theorem w3_arg3 : W3 m ρ c (Proc.devRef .tc main_arg3) = (m ((c : Thread nD τ).loc main_arg3)) := by
  show StableHlo.after hostOps1 (W2 m ρ c) (Proc.devRef .tc main_arg3) = _
  dsimp only [hostOps1]
  after_results
  all_goals exact (w2_arg3 m ρ c h0 h1 h2 h3 h4)

/-! ## Boundary 4: after region 1 (X₂) -/

theorem w4_v6 : W4 m ρ c (Proc.devRef .tc main_v6) = (X2 (m ((c : Thread nD τ).loc main_arg0)) (m ((c : Thread nD τ).loc main_arg1))) := by
  refine (W4_arr m ρ c 3).trans ((h1 (V3 m ρ) c).trans ?_)
  show chebArr _ _ (W3 m ρ c (Proc.devRef .tc main_v2)) (W3 m ρ c (Proc.devRef .tc main_v5)) (W3 m ρ c (Proc.devRef .tc main_v1)) = _
  rw [(w3_v2 m ρ c h0 h1 h2 h3 h4), (w3_v5 m ρ c h0 h1 h2 h3 h4), (w3_v1 m ρ c h0 h1 h2 h3 h4)]
  all_goals rfl

theorem w4_v1 : W4 m ρ c (Proc.devRef .tc main_v1) = (X0 (m ((c : Thread nD τ).loc main_arg0))) :=
  ((W4_arr m ρ c 2).trans (((dat1 (V3 m ρ) c).arrAt_in 2 rfl _).trans (A_eq1 (V3 m ρ) c 2))).trans (w3_v1 m ρ c h0 h1 h2 h3 h4)

theorem w4_v2 : W4 m ρ c (Proc.devRef .tc main_v2) = (Lb (m ((c : Thread nD τ).loc main_arg1))) :=
  ((W4_arr m ρ c 0).trans (((dat1 (V3 m ρ) c).arrAt_in 0 rfl _).trans (A_eq1 (V3 m ρ) c 0))).trans (w3_v2 m ρ c h0 h1 h2 h3 h4)

theorem w4_v4 : W4 m ρ c (Proc.devRef .tc main_v4) = (X1 (m ((c : Thread nD τ).loc main_arg0)) (m ((c : Thread nD τ).loc main_arg1))) :=
  (W4_of_ne m ρ c main_v4 (by decide)).trans (w3_v4 m ρ c h0 h1 h2 h3 h4)

theorem w4_arg2 : W4 m ρ c (Proc.devRef .tc main_arg2) = (m ((c : Thread nD τ).loc main_arg2)) :=
  (W4_of_ne m ρ c main_arg2 (by decide)).trans (w3_arg2 m ρ c h0 h1 h2 h3 h4)

theorem w4_arg3 : W4 m ρ c (Proc.devRef .tc main_arg3) = (m ((c : Thread nD τ).loc main_arg3)) :=
  (W4_of_ne m ρ c main_arg3 (by decide)).trans (w3_arg3 m ρ c h0 h1 h2 h3 h4)

/-! ## Boundary 5 -/

theorem w5_v7 : W5 m ρ c (Proc.devRef .tc main_v7) = (cut (X2 (m ((c : Thread nD τ).loc main_arg0)) (m ((c : Thread nD τ).loc main_arg1)))) := by
  show StableHlo.after hostOps2 (W4 m ρ c) (Proc.devRef .tc main_v7) = _
  dsimp only [hostOps2]
  after_results
  all_goals rw [(w4_v6 m ρ c h0 h1 h2 h3 h4)]
  all_goals rfl

theorem w5_v1 : W5 m ρ c (Proc.devRef .tc main_v1) = (X0 (m ((c : Thread nD τ).loc main_arg0))) := by
  show StableHlo.after hostOps2 (W4 m ρ c) (Proc.devRef .tc main_v1) = _
  dsimp only [hostOps2]
  after_results
  all_goals exact (w4_v1 m ρ c h0 h1 h2 h3 h4)

theorem w5_v2 : W5 m ρ c (Proc.devRef .tc main_v2) = (Lb (m ((c : Thread nD τ).loc main_arg1))) := by
  show StableHlo.after hostOps2 (W4 m ρ c) (Proc.devRef .tc main_v2) = _
  dsimp only [hostOps2]
  after_results
  all_goals exact (w4_v2 m ρ c h0 h1 h2 h3 h4)

theorem w5_v4 : W5 m ρ c (Proc.devRef .tc main_v4) = (X1 (m ((c : Thread nD τ).loc main_arg0)) (m ((c : Thread nD τ).loc main_arg1))) := by
  show StableHlo.after hostOps2 (W4 m ρ c) (Proc.devRef .tc main_v4) = _
  dsimp only [hostOps2]
  after_results
  all_goals exact (w4_v4 m ρ c h0 h1 h2 h3 h4)

theorem w5_v6 : W5 m ρ c (Proc.devRef .tc main_v6) = (X2 (m ((c : Thread nD τ).loc main_arg0)) (m ((c : Thread nD τ).loc main_arg1))) := by
  show StableHlo.after hostOps2 (W4 m ρ c) (Proc.devRef .tc main_v6) = _
  dsimp only [hostOps2]
  after_results
  all_goals exact (w4_v6 m ρ c h0 h1 h2 h3 h4)

theorem w5_arg2 : W5 m ρ c (Proc.devRef .tc main_arg2) = (m ((c : Thread nD τ).loc main_arg2)) := by
  show StableHlo.after hostOps2 (W4 m ρ c) (Proc.devRef .tc main_arg2) = _
  dsimp only [hostOps2]
  after_results
  all_goals exact (w4_arg2 m ρ c h0 h1 h2 h3 h4)

theorem w5_arg3 : W5 m ρ c (Proc.devRef .tc main_arg3) = (m ((c : Thread nD τ).loc main_arg3)) := by
  show StableHlo.after hostOps2 (W4 m ρ c) (Proc.devRef .tc main_arg3) = _
  dsimp only [hostOps2]
  after_results
  all_goals exact (w4_arg3 m ρ c h0 h1 h2 h3 h4)

/-! ## Boundary 6: after region 2 (X₃) -/

theorem w6_v8 : W6 m ρ c (Proc.devRef .tc main_v8) = (X3 (m ((c : Thread nD τ).loc main_arg0)) (m ((c : Thread nD τ).loc main_arg1))) := by
  refine (W6_arr m ρ c 3).trans ((h2 (V5 m ρ) c).trans ?_)
  show chebArr _ _ (W5 m ρ c (Proc.devRef .tc main_v2)) (W5 m ρ c (Proc.devRef .tc main_v7)) (W5 m ρ c (Proc.devRef .tc main_v4)) = _
  rw [(w5_v2 m ρ c h0 h1 h2 h3 h4), (w5_v7 m ρ c h0 h1 h2 h3 h4), (w5_v4 m ρ c h0 h1 h2 h3 h4)]
  all_goals rfl

theorem w6_v2 : W6 m ρ c (Proc.devRef .tc main_v2) = (Lb (m ((c : Thread nD τ).loc main_arg1))) :=
  ((W6_arr m ρ c 0).trans (((dat2 (V5 m ρ) c).arrAt_in 0 rfl _).trans (A_eq2 (V5 m ρ) c 0))).trans (w5_v2 m ρ c h0 h1 h2 h3 h4)

theorem w6_v4 : W6 m ρ c (Proc.devRef .tc main_v4) = (X1 (m ((c : Thread nD τ).loc main_arg0)) (m ((c : Thread nD τ).loc main_arg1))) :=
  ((W6_arr m ρ c 2).trans (((dat2 (V5 m ρ) c).arrAt_in 2 rfl _).trans (A_eq2 (V5 m ρ) c 2))).trans (w5_v4 m ρ c h0 h1 h2 h3 h4)

theorem w6_v1 : W6 m ρ c (Proc.devRef .tc main_v1) = (X0 (m ((c : Thread nD τ).loc main_arg0))) :=
  (W6_of_ne m ρ c main_v1 (by decide)).trans (w5_v1 m ρ c h0 h1 h2 h3 h4)

theorem w6_v6 : W6 m ρ c (Proc.devRef .tc main_v6) = (X2 (m ((c : Thread nD τ).loc main_arg0)) (m ((c : Thread nD τ).loc main_arg1))) :=
  (W6_of_ne m ρ c main_v6 (by decide)).trans (w5_v6 m ρ c h0 h1 h2 h3 h4)

theorem w6_arg2 : W6 m ρ c (Proc.devRef .tc main_arg2) = (m ((c : Thread nD τ).loc main_arg2)) :=
  (W6_of_ne m ρ c main_arg2 (by decide)).trans (w5_arg2 m ρ c h0 h1 h2 h3 h4)

theorem w6_arg3 : W6 m ρ c (Proc.devRef .tc main_arg3) = (m ((c : Thread nD τ).loc main_arg3)) :=
  (W6_of_ne m ρ c main_arg3 (by decide)).trans (w5_arg3 m ρ c h0 h1 h2 h3 h4)

/-! ## Boundary 7 -/

theorem w7_v9 : W7 m ρ c (Proc.devRef .tc main_v9) = (cut (X3 (m ((c : Thread nD τ).loc main_arg0)) (m ((c : Thread nD τ).loc main_arg1)))) := by
  show StableHlo.after hostOps3 (W6 m ρ c) (Proc.devRef .tc main_v9) = _
  dsimp only [hostOps3]
  after_results
  all_goals rw [(w6_v8 m ρ c h0 h1 h2 h3 h4)]
  all_goals rfl

theorem w7_v1 : W7 m ρ c (Proc.devRef .tc main_v1) = (X0 (m ((c : Thread nD τ).loc main_arg0))) := by
  show StableHlo.after hostOps3 (W6 m ρ c) (Proc.devRef .tc main_v1) = _
  dsimp only [hostOps3]
  after_results
  all_goals exact (w6_v1 m ρ c h0 h1 h2 h3 h4)

theorem w7_v2 : W7 m ρ c (Proc.devRef .tc main_v2) = (Lb (m ((c : Thread nD τ).loc main_arg1))) := by
  show StableHlo.after hostOps3 (W6 m ρ c) (Proc.devRef .tc main_v2) = _
  dsimp only [hostOps3]
  after_results
  all_goals exact (w6_v2 m ρ c h0 h1 h2 h3 h4)

theorem w7_v4 : W7 m ρ c (Proc.devRef .tc main_v4) = (X1 (m ((c : Thread nD τ).loc main_arg0)) (m ((c : Thread nD τ).loc main_arg1))) := by
  show StableHlo.after hostOps3 (W6 m ρ c) (Proc.devRef .tc main_v4) = _
  dsimp only [hostOps3]
  after_results
  all_goals exact (w6_v4 m ρ c h0 h1 h2 h3 h4)

theorem w7_v6 : W7 m ρ c (Proc.devRef .tc main_v6) = (X2 (m ((c : Thread nD τ).loc main_arg0)) (m ((c : Thread nD τ).loc main_arg1))) := by
  show StableHlo.after hostOps3 (W6 m ρ c) (Proc.devRef .tc main_v6) = _
  dsimp only [hostOps3]
  after_results
  all_goals exact (w6_v6 m ρ c h0 h1 h2 h3 h4)

theorem w7_v8 : W7 m ρ c (Proc.devRef .tc main_v8) = (X3 (m ((c : Thread nD τ).loc main_arg0)) (m ((c : Thread nD τ).loc main_arg1))) := by
  show StableHlo.after hostOps3 (W6 m ρ c) (Proc.devRef .tc main_v8) = _
  dsimp only [hostOps3]
  after_results
  all_goals exact (w6_v8 m ρ c h0 h1 h2 h3 h4)

theorem w7_arg2 : W7 m ρ c (Proc.devRef .tc main_arg2) = (m ((c : Thread nD τ).loc main_arg2)) := by
  show StableHlo.after hostOps3 (W6 m ρ c) (Proc.devRef .tc main_arg2) = _
  dsimp only [hostOps3]
  after_results
  all_goals exact (w6_arg2 m ρ c h0 h1 h2 h3 h4)

theorem w7_arg3 : W7 m ρ c (Proc.devRef .tc main_arg3) = (m ((c : Thread nD τ).loc main_arg3)) := by
  show StableHlo.after hostOps3 (W6 m ρ c) (Proc.devRef .tc main_arg3) = _
  dsimp only [hostOps3]
  after_results
  all_goals exact (w6_arg3 m ρ c h0 h1 h2 h3 h4)

/-! ## Boundary 8: after region 3 (X₄) -/

theorem w8_v10 : W8 m ρ c (Proc.devRef .tc main_v10) = (X4 (m ((c : Thread nD τ).loc main_arg0)) (m ((c : Thread nD τ).loc main_arg1))) := by
  refine (W8_arr m ρ c 3).trans ((h3 (V7 m ρ) c).trans ?_)
  show chebArr _ _ (W7 m ρ c (Proc.devRef .tc main_v2)) (W7 m ρ c (Proc.devRef .tc main_v9)) (W7 m ρ c (Proc.devRef .tc main_v6)) = _
  rw [(w7_v2 m ρ c h0 h1 h2 h3 h4), (w7_v9 m ρ c h0 h1 h2 h3 h4), (w7_v6 m ρ c h0 h1 h2 h3 h4)]
  all_goals rfl

theorem w8_v6 : W8 m ρ c (Proc.devRef .tc main_v6) = (X2 (m ((c : Thread nD τ).loc main_arg0)) (m ((c : Thread nD τ).loc main_arg1))) :=
  ((W8_arr m ρ c 2).trans (((dat3 (V7 m ρ) c).arrAt_in 2 rfl _).trans (A_eq3 (V7 m ρ) c 2))).trans (w7_v6 m ρ c h0 h1 h2 h3 h4)

theorem w8_v1 : W8 m ρ c (Proc.devRef .tc main_v1) = (X0 (m ((c : Thread nD τ).loc main_arg0))) :=
  (W8_of_ne m ρ c main_v1 (by decide)).trans (w7_v1 m ρ c h0 h1 h2 h3 h4)

theorem w8_v4 : W8 m ρ c (Proc.devRef .tc main_v4) = (X1 (m ((c : Thread nD τ).loc main_arg0)) (m ((c : Thread nD τ).loc main_arg1))) :=
  (W8_of_ne m ρ c main_v4 (by decide)).trans (w7_v4 m ρ c h0 h1 h2 h3 h4)

theorem w8_v8 : W8 m ρ c (Proc.devRef .tc main_v8) = (X3 (m ((c : Thread nD τ).loc main_arg0)) (m ((c : Thread nD τ).loc main_arg1))) :=
  (W8_of_ne m ρ c main_v8 (by decide)).trans (w7_v8 m ρ c h0 h1 h2 h3 h4)

theorem w8_arg2 : W8 m ρ c (Proc.devRef .tc main_arg2) = (m ((c : Thread nD τ).loc main_arg2)) :=
  (W8_of_ne m ρ c main_arg2 (by decide)).trans (w7_arg2 m ρ c h0 h1 h2 h3 h4)

theorem w8_arg3 : W8 m ρ c (Proc.devRef .tc main_arg3) = (m ((c : Thread nD τ).loc main_arg3)) :=
  (W8_of_ne m ρ c main_arg3 (by decide)).trans (w7_arg3 m ρ c h0 h1 h2 h3 h4)

/-! ## Boundary 9: the row views, the weights and the bias row -/

theorem w9_v11 : W9 m ρ c (Proc.devRef .tc main_v11) = (rows (X0 (m ((c : Thread nD τ).loc main_arg0)))) := by
  show StableHlo.after hostOps4 (W8 m ρ c) (Proc.devRef .tc main_v11) = _
  dsimp only [hostOps4]
  after_results
  all_goals rw [(w8_v1 m ρ c h0 h1 h2 h3 h4)]
  all_goals rfl

theorem w9_v12 : W9 m ρ c (Proc.devRef .tc main_v12) = (rows (X1 (m ((c : Thread nD τ).loc main_arg0)) (m ((c : Thread nD τ).loc main_arg1)))) := by
  show StableHlo.after hostOps4 (W8 m ρ c) (Proc.devRef .tc main_v12) = _
  dsimp only [hostOps4]
  after_results
  all_goals rw [(w8_v4 m ρ c h0 h1 h2 h3 h4)]
  all_goals rfl

theorem w9_v13 : W9 m ρ c (Proc.devRef .tc main_v13) = (rows (X2 (m ((c : Thread nD τ).loc main_arg0)) (m ((c : Thread nD τ).loc main_arg1)))) := by
  show StableHlo.after hostOps4 (W8 m ρ c) (Proc.devRef .tc main_v13) = _
  dsimp only [hostOps4]
  after_results
  all_goals rw [(w8_v6 m ρ c h0 h1 h2 h3 h4)]
  all_goals rfl

theorem w9_v14 : W9 m ρ c (Proc.devRef .tc main_v14) = (rows (X3 (m ((c : Thread nD τ).loc main_arg0)) (m ((c : Thread nD τ).loc main_arg1)))) := by
  show StableHlo.after hostOps4 (W8 m ρ c) (Proc.devRef .tc main_v14) = _
  dsimp only [hostOps4]
  after_results
  all_goals rw [(w8_v8 m ρ c h0 h1 h2 h3 h4)]
  all_goals rfl

theorem w9_v15 : W9 m ρ c (Proc.devRef .tc main_v15) = (rows (X4 (m ((c : Thread nD τ).loc main_arg0)) (m ((c : Thread nD τ).loc main_arg1)))) := by
  show StableHlo.after hostOps4 (W8 m ρ c) (Proc.devRef .tc main_v15) = _
  dsimp only [hostOps4]
  after_results
  all_goals rw [(w8_v10 m ρ c h0 h1 h2 h3 h4)]
  all_goals rfl

theorem w9_v17 : W9 m ρ c (Proc.devRef .tc main_v17) = (Wt (m ((c : Thread nD τ).loc main_arg2))) := by
  show StableHlo.after hostOps4 (W8 m ρ c) (Proc.devRef .tc main_v17) = _
  dsimp only [hostOps4]
  after_results
  all_goals rw [(w8_arg2 m ρ c h0 h1 h2 h3 h4)]
  all_goals rfl

theorem w9_v18 : W9 m ρ c (Proc.devRef .tc main_v18) = (B2 (m ((c : Thread nD τ).loc main_arg3))) := by
  show StableHlo.after hostOps4 (W8 m ρ c) (Proc.devRef .tc main_v18) = _
  dsimp only [hostOps4]
  after_results
  all_goals rw [(w8_arg3 m ρ c h0 h1 h2 h3 h4)]
  all_goals rfl

/-! ## Boundary 10: after region 4 (the linear layer) -/

theorem w10_v19 : W10 m ρ c (Proc.devRef .tc main_v19) = Y (m ((c : Thread nD τ).loc main_arg0)) (m ((c : Thread nD τ).loc main_arg1)) (m ((c : Thread nD τ).loc main_arg2)) (m ((c : Thread nD τ).loc main_arg3)) := by
  refine (W10_arr m ρ c 7).trans ((h4 (V9 m ρ) c).trans ?_)
  show finalArr (W9 m ρ c (Proc.devRef .tc main_v11)) (W9 m ρ c (Proc.devRef .tc main_v12)) (W9 m ρ c (Proc.devRef .tc main_v13)) (W9 m ρ c (Proc.devRef .tc main_v14)) (W9 m ρ c (Proc.devRef .tc main_v15)) (W9 m ρ c (Proc.devRef .tc main_v17)) (W9 m ρ c (Proc.devRef .tc main_v18)) = _
  rw [(w9_v11 m ρ c h0 h1 h2 h3 h4), (w9_v12 m ρ c h0 h1 h2 h3 h4), (w9_v13 m ρ c h0 h1 h2 h3 h4), (w9_v14 m ρ c h0 h1 h2 h3 h4), (w9_v15 m ρ c h0 h1 h2 h3 h4), (w9_v17 m ρ c h0 h1 h2 h3 h4), (w9_v18 m ρ c h0 h1 h2 h3 h4)]
  all_goals rfl

/-! ## Boundary 11: the result -/

/-- THE RESULT BUFFER at the last boundary is the composition `OUT` of the four argument arrays. -/
theorem w11_v21 : W11 m ρ c (Proc.devRef .tc main_v21) = OUT (m ((c : Thread nD τ).loc main_arg0)) (m ((c : Thread nD τ).loc main_arg1)) (m ((c : Thread nD τ).loc main_arg2)) (m ((c : Thread nD τ).loc main_arg3)) := by
  show StableHlo.after hostOps5 (W10 m ρ c) (Proc.devRef .tc main_v21) = _
  dsimp only [hostOps5]
  after_results
  all_goals rw [(w10_v19 m ρ c h0 h1 h2 h3 h4)]
  all_goals rfl

end Walk

end Cert.KernelIdeal.Walk

end
-- ==== Proof.ChebRegion.lean ====
/-
  One recurrence step as a function of whole arrays.

  Each of the four step regions runs over 32 grid points; point `t` reads rows `256·t … 256·t + 255` of the
  Laplacian `L` (all 8192 columns), the whole current signal `X` (8192 × 1024), rows `256·t …` of the previous signal
  `P`, and writes rows `256·t …` of the output with `a · (L·X) + b · P`, the product accumulated from zero.  The 32 row
  blocks tile the 8192 rows, so after the region the output array is, index by index,
  `out[r, j] = a · ∑ₖ L[r, k] · X[k, j] + b · P[r, j]` (`Cert.ChebSpec.chebArr`), with (a, b) the words of (1.0, 0.0) in
  the first region and of (2.0, −1.0) in the other three; the words are never evaluated here.
-/
import proofs.«165978_j16449724743711_2_alg».proof.Proof.Gen.KernelIdeal.Frame
import proofs.«165978_j16449724743711_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.ChebRegion

open Cert.KernelIdeal Cert.KernelIdeal.Gen Idealize.ShloMosaic Idealize.ShloMosaic.TcCoe Idealize.SL.Sem
open Idealize.ShloMosaic.Pipeline (Dat)
open Idealize.ShloMosaic.ValueIdx
open Cert.ChebSpec (chebArr)

/-! ## The body's payload at an index -/

/-- The left operand's row coordinate at an output index is the output's row. -/
theorem lhs_row (i : S256x1024.Idx) (r : dot_S256x8192_S8192x1024_S256x1024_1_0_0_1_n_n.contr.Idx) :
    (dot_S256x8192_S8192x1024_S256x1024_1_0_0_1_n_n.lhsIdx i r 0).val = (i 0).val := by
  unfold DotDims.lhsIdx
  rw [dif_neg (show ¬(0 : Fin S256x8192.rank) ∈ dot_S256x8192_S8192x1024_S256x1024_1_0_0_1_n_n.lhsBatch by decide),
    dif_pos (show (0 : Fin S256x8192.rank) ∈ dot_S256x8192_S8192x1024_S256x1024_1_0_0_1_n_n.lhsNonContracting by decide)]
  rfl

/-- The left operand's column coordinate is the contracted position. -/
theorem lhs_col (i : S256x1024.Idx) (r : dot_S256x8192_S8192x1024_S256x1024_1_0_0_1_n_n.contr.Idx) :
    (dot_S256x8192_S8192x1024_S256x1024_1_0_0_1_n_n.lhsIdx i r 1).val = (r ⟨0, by decide⟩).val :=
  dot_S256x8192_S8192x1024_S256x1024_1_0_0_1_n_n.lhsIdx_val_of_single rfl i r

/-- The right operand's row coordinate is the contracted position. -/
theorem rhs_row (i : S256x1024.Idx) (r : dot_S256x8192_S8192x1024_S256x1024_1_0_0_1_n_n.contr.Idx) :
    (dot_S256x8192_S8192x1024_S256x1024_1_0_0_1_n_n.rhsIdx i r 0).val = (r ⟨0, by decide⟩).val :=
  dot_S256x8192_S8192x1024_S256x1024_1_0_0_1_n_n.rhsIdx_val_of_single rfl i r

/-- The right operand's column coordinate at an output index is the output's column. -/
theorem rhs_col (i : S256x1024.Idx) (r : dot_S256x8192_S8192x1024_S256x1024_1_0_0_1_n_n.contr.Idx) :
    (dot_S256x8192_S8192x1024_S256x1024_1_0_0_1_n_n.rhsIdx i r 1).val = (i 1).val := by
  unfold DotDims.rhsIdx
  rw [dif_neg (show ¬(1 : Fin S8192x1024.rank) ∈ dot_S256x8192_S8192x1024_S256x1024_1_0_0_1_n_n.rhsBatch by decide),
    dif_pos (show (1 : Fin S8192x1024.rank) ∈ dot_S256x8192_S8192x1024_S256x1024_1_0_0_1_n_n.rhsNonContracting by decide)]
  rfl

/-- The kernel's matrix product into a zero accumulator, at row `p` and column `q`: the sum over the
    8192 contracted positions of the left operand's row times the right operand's column. -/
theorem matmul_at (x0 : FVec Ideal S256x8192 .bf16) (x1 : FVec Ideal S8192x1024 .bf16) (p : Fin 256) (q : Fin 1024) :
    FloatOps.matmul (F := Ideal) dot_S256x8192_S8192x1024_S256x1024_1_0_0_1_n_n none x0 x1
        (constant (F := Ideal) S256x1024 .f32 0x00000000#32) (ix2 p q)
      = ∑ k : Fin 8192, x0 (ix2 p k) * x1 (ix2 k q) := by
  rw [Ideal.matmul_constant_zero_apply,
    ← Equiv.sum_comp (ValueIdx.contrEquiv1 dot_S256x8192_S8192x1024_S256x1024_1_0_0_1_n_n 8192 rfl rfl).symm]
  refine Finset.sum_congr rfl fun k _ => ?_
  have hk := ValueIdx.contrEquiv1_symm_val dot_S256x8192_S8192x1024_S256x1024_1_0_0_1_n_n 8192 rfl rfl k
  have el : dot_S256x8192_S8192x1024_S256x1024_1_0_0_1_n_n.lhsIdx (ix2 p q)
      ((ValueIdx.contrEquiv1 dot_S256x8192_S8192x1024_S256x1024_1_0_0_1_n_n 8192 rfl rfl).symm k) = ix2 p k :=
    funext fun a => Fin.ext (by
      match a with
      | ⟨0, _⟩ => exact lhs_row _ _
      | ⟨1, _⟩ => exact (lhs_col _ _).trans hk)
  have er : dot_S256x8192_S8192x1024_S256x1024_1_0_0_1_n_n.rhsIdx (ix2 p q)
      ((ValueIdx.contrEquiv1 dot_S256x8192_S8192x1024_S256x1024_1_0_0_1_n_n 8192 rfl rfl).symm k) = ix2 k q :=
    funext fun a => Fin.ext (by
      match a with
      | ⟨0, _⟩ => exact (rhs_row _ _).trans hk
      | ⟨1, _⟩ => exact rhs_col _ _)
  rw [el, er]

/-- The four regions' payload, with the two literal words as parameters: `a · (x0 · x1) + b · x2`, the
    product accumulated from zero. -/
def pay (a b : BitVec 32) (x0 : Vec Ideal S256x8192 .bf16) (x1 : Vec Ideal S8192x1024 .bf16)
    (x2 : Vec Ideal S256x1024 .f32) : FVec Ideal S256x1024 .f32 :=
  addf (mulf (broadcast S256x1024 (Ideal.ofBits .f32 a))
      (FloatOps.matmul (F := Ideal) (φ₁ := .bf16) (φ₂ := .bf16) dot_S256x8192_S8192x1024_S256x1024_1_0_0_1_n_n none x0 x1 (constant (F := Ideal) S256x1024 .f32 0x00000000#32)))
    (mulf (broadcast S256x1024 (Ideal.ofBits .f32 b)) x2)

/-- Region 0's payload is the common form at its two words (a cast to the same shape is the identity). -/
theorem k0_pay1_eq (x0 : Vec Ideal S256x8192 .bf16) (x1 : Vec Ideal S8192x1024 .bf16) (x2 : Vec Ideal S256x1024 .f32) :
    k0_pay1 (F := Ideal) x0 x1 x2 = pay 0x3F800000#32 0x00000000#32 x0 x1 x2 := by
  unfold k0_pay1 pay
  simp only [shapeCast_self]
  rfl

/-- Region 1's payload is the common form at its two words (a cast to the same shape is the identity). -/
theorem k1_pay1_eq (x0 : Vec Ideal S256x8192 .bf16) (x1 : Vec Ideal S8192x1024 .bf16) (x2 : Vec Ideal S256x1024 .f32) :
    k1_pay1 (F := Ideal) x0 x1 x2 = pay 0x40000000#32 0xBF800000#32 x0 x1 x2 := by
  unfold k1_pay1 pay
  simp only [shapeCast_self]
  rfl

/-- Region 2's payload is the common form at its two words (a cast to the same shape is the identity). -/
theorem k2_pay1_eq (x0 : Vec Ideal S256x8192 .bf16) (x1 : Vec Ideal S8192x1024 .bf16) (x2 : Vec Ideal S256x1024 .f32) :
    k2_pay1 (F := Ideal) x0 x1 x2 = pay 0x40000000#32 0xBF800000#32 x0 x1 x2 := by
  unfold k2_pay1 pay
  simp only [shapeCast_self]
  rfl

/-- Region 3's payload is the common form at its two words (a cast to the same shape is the identity). -/
theorem k3_pay1_eq (x0 : Vec Ideal S256x8192 .bf16) (x1 : Vec Ideal S8192x1024 .bf16) (x2 : Vec Ideal S256x1024 .f32) :
    k3_pay1 (F := Ideal) x0 x1 x2 = pay 0x40000000#32 0xBF800000#32 x0 x1 x2 := by
  unfold k3_pay1 pay
  simp only [shapeCast_self]
  rfl

/-- The payload at row `p`, column `q`. -/
theorem pay_apply (a b : BitVec 32) (x0 : Vec Ideal S256x8192 .bf16) (x1 : Vec Ideal S8192x1024 .bf16)
    (x2 : Vec Ideal S256x1024 .f32) (p : Fin 256) (q : Fin 1024) :
    pay a b x0 x1 x2 (ix2 p q)
      = Ideal.ofBits .f32 a * (∑ k : Fin 8192, x0 (ix2 p k) * x1 (ix2 k q)) + Ideal.ofBits .f32 b * x2 (ix2 p q) := by
  unfold pay
  rw [addf_apply, mulf_apply, mulf_apply, broadcast_apply, broadcast_apply]
  exact congrArg (fun z => Ideal.ofBits .f32 a * z + Ideal.ofBits .f32 b * x2 (ix2 p q)) (matmul_at x0 x1 p q)

/-! ## From a block to the array -/

/-- The zero offsets, spelt as the constant function. -/
theorem hz : (![0, 0] : Fin 2 → Nat) = fun _ => 0 := funext fun a => by fin_cases a <;> rfl

/-- One block of the recurrence step. If the three loaded blocks are rows `r·256 …` of the Laplacian, the whole
    current signal, and rows `r·256 …` of the previous signal, the payload at (p, q) is the step at (r·256 + p, q). -/
theorem block_eq (a b : BitVec 32) (A : (⟨2, ![8192, 8192]⟩ : Shape).Idx → EReal)
    (X P : (⟨2, ![8192, 1024]⟩ : Shape).Idx → EReal)
    (x0 : Vec Ideal S256x8192 .bf16) (x1 : Vec Ideal S8192x1024 .bf16) (x2 : Vec Ideal S256x1024 .f32)
    (r : Nat) (hr : r ≤ 31)
    (h0 : ∀ (p : Fin 256) (k : Fin 8192), x0 (ix2 p k) = A (ix2 (⟨r * 256 + p.val, by have := p.isLt; omega⟩ : Fin 8192) k))
    (h1 : ∀ (k : Fin 8192) (q : Fin 1024), x1 (ix2 k q) = X (ix2 k q))
    (h2 : ∀ (p : Fin 256) (q : Fin 1024), x2 (ix2 p q) = P (ix2 (⟨r * 256 + p.val, by have := p.isLt; omega⟩ : Fin 8192) q))
    (p : Fin 256) (q : Fin 1024) :
    pay a b x0 x1 x2 (ix2 p q)
      = chebArr (Ideal.ofBits .f32 a) (Ideal.ofBits .f32 b) A X P (ix2 (⟨r * 256 + p.val, by have := p.isLt; omega⟩ : Fin 8192) q) := by
  rw [pay_apply, h2]
  unfold Cert.ChebSpec.chebArr
  refine congrArg (fun z => Ideal.ofBits .f32 a * z + _) (Finset.sum_congr rfl fun k _ => ?_)
  rw [h0, h1]

/-! ## Region 0 -/

section Region0
variable (V : (c : Dev nD) → (b : Ref sig .tc) → Buf (Elt Ideal) ((c : Thread nD τ).loc b))

/-- The index maps over the 32 grid points: the Laplacian's and the previous signal's row blocks move with the
    output's row block, the current signal is read whole, and the output's block row stays below 32. -/
theorem idx_facts0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 31 :=
  (by decide +kernel : ∀ t : Fin grid0.N, _)

/-- Every one of the 32 row blocks of the output is some point's. -/
theorem idx_onto0 : ∀ q0 : Fin 32, ∃ t : Fin cfg0.N, win0_3.index t = ![q0.val, 0] :=
  (by decide +kernel : ∀ q0 : Fin 32, ∃ t : Fin grid0.N, win0_3.index t = ![q0.val, 0])

/-- What point `t` writes back is block `t` of the recurrence step of the arrays the region finds. -/
theorem flushed_eq0 (c : Dev nD) (t : Fin cfg0.N) :
    (dat0 (F := Ideal) V c).flushed 3 t = ((cfg0.win 3).blk t).view.read (Elt Ideal)
      (chebArr (Ideal.ofBits .f32 0x3F800000#32) (Ideal.ofBits .f32 0x00000000#32) (V c main_v2) (V c main_v3) (V c main_v1)) := by
  show (cfg0.win 3).cut (grid0.coords t) ((dat0 V c).after 3 t) = _
  rw [after0_3]
  unfold out0_3
  rw [View.canon_unit_zero hz]
  simp only [View.ld_unit_zero (S := S256x8192) hz, View.ld_unit_zero (S := S8192x1024) hz, View.ld_unit_zero (S := S256x1024) hz]
  rw [k0_pay1_eq]
  obtain ⟨e0, e1, e2, e3, e4, e5, e6, e7⟩ := idx_facts0 t
  funext j
  obtain ⟨p, q, rfl⟩ : ∃ (p : Fin 256) (q : Fin 1024), j = ix2 p q := ⟨j 0, j 1, eq_ix2 j⟩
  have hp := p.isLt
  have hq := q.isLt
  have hemb : ((cfg0.win 3).blk t).view.emb (ix2 p q)
      = ix2 (⟨win0_3.index t (0 : Fin 2) * 256 + p.val, by omega⟩ : Fin 8192) q := by
    funext a; apply Fin.ext
    match a with
    | ⟨0, _⟩ => show win0_3.index t (0 : Fin 2) * 256 + 1 * p.val = win0_3.index t (0 : Fin 2) * 256 + p.val; omega
    | ⟨1, _⟩ => show win0_3.index t (1 : Fin 2) * 1024 + 1 * q.val = q.val; omega
  show pay _ _ (iblk0 V c 0 t) (iblk0 V c 1 t) (iblk0 V c 2 t) (ix2 p q)
    = chebArr _ _ (V c main_v2) (V c main_v3) (V c main_v1) (((cfg0.win 3).blk t).view.emb (ix2 p q))
  rw [hemb]
  refine block_eq _ _ (V c main_v2) (V c main_v3) (V c main_v1) _ _ _ (win0_3.index t (0 : Fin 2)) e7 ?_ ?_ ?_ p q
  · intro p' k
    have hp' := p'.isLt
    show V c main_v2 (((cfg0.win 0).blk t).view.emb (ix2 p' k)) = _
    refine congrArg (V c main_v2) (funext fun a => Fin.ext ?_)
    match a with
    | ⟨0, _⟩ => show win0_0.index t (0 : Fin 2) * 256 + 1 * p'.val = win0_3.index t (0 : Fin 2) * 256 + p'.val; omega
    | ⟨1, _⟩ => show win0_0.index t (1 : Fin 2) * 8192 + 1 * k.val = k.val; omega
  · intro k q'
    show V c main_v3 (((cfg0.win 1).blk t).view.emb (ix2 k q')) = _
    refine congrArg (V c main_v3) (funext fun a => Fin.ext ?_)
    match a with
    | ⟨0, _⟩ => show win0_1.index t (0 : Fin 2) * 8192 + 1 * k.val = k.val; omega
    | ⟨1, _⟩ => show win0_1.index t (1 : Fin 2) * 1024 + 1 * q'.val = q'.val; omega
  · intro p' q'
    have hp' := p'.isLt
    show V c main_v1 (((cfg0.win 2).blk t).view.emb (ix2 p' q')) = _
    refine congrArg (V c main_v1) (funext fun a => Fin.ext ?_)
    match a with
    | ⟨0, _⟩ => show win0_2.index t (0 : Fin 2) * 256 + 1 * p'.val = win0_3.index t (0 : Fin 2) * 256 + p'.val; omega
    | ⟨1, _⟩ => show win0_2.index t (1 : Fin 2) * 1024 + 1 * q'.val = q'.val; omega

/-- An index of the output array is in point `t`'s block iff each coordinate is in the block's range on its axis. -/
theorem mem_blk0 (t : Fin cfg0.N) (i : S8192x1024.Idx) :
    i ∈ ((cfg0.win 3).blk t).view.set ↔ ∀ a : Fin 2, win0_3.index t a * S256x1024.size a ≤ (i a).val
      ∧ (i a).val < win0_3.index t a * S256x1024.size a + S256x1024.size a := by
  show i ∈ ((View.whole main_v4).slice (win0_3.rect t)).set ↔ _
  rw [View.set_slice_whole, Rect.mem_set_unit]
  exact Iff.rfl

/-- Every index of the output array is in the block of the point whose block index is its row over 256. -/
theorem cover0 (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  obtain ⟨t, ht⟩ := idx_onto0 ⟨(i 0).val / 256, by omega⟩
  have q0 : win0_3.index t (0 : Fin 2) = (i 0).val / 256 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 1024 ≤ (i 1).val ∧ (i 1).val < win0_3.index t (1 : Fin 2) * 1024 + 1024; omega

/-- REGION 0: the output array after the region is the first step, `1 · (L · X) + 0 · P`, of the arrays the region finds. -/
theorem final0 (c : Dev nD) : (dat0 (F := Ideal) V c).arrAt 3 cfg0.N
    = chebArr (Ideal.ofBits .f32 0x3F800000#32) (Ideal.ofBits .f32 0x00000000#32) (V c main_v2) (V c main_v3) (V c main_v1) :=
  (dat0 V c).arrAt_eq_of_cover 3 _ (fun t _ => flushed_eq0 V c t) cover0

end Region0

/-! ## Region 1 -/

section Region1
variable (V : (c : Dev nD) → (b : Ref sig .tc) → Buf (Elt Ideal) ((c : Thread nD τ).loc b))

/-- The index maps over the 32 grid points: the Laplacian's and the previous signal's row blocks move with the
    output's row block, the current signal is read whole, and the output's block row stays below 32. -/
theorem idx_facts1 : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = win1_3.index t (0 : Fin 2) ∧ win1_2.index t (1 : Fin 2) = 0
    ∧ win1_3.index t (1 : Fin 2) = 0 ∧ win1_3.index t (0 : Fin 2) ≤ 31 :=
  (by decide +kernel : ∀ t : Fin grid1.N, _)

/-- Every one of the 32 row blocks of the output is some point's. -/
theorem idx_onto1 : ∀ q0 : Fin 32, ∃ t : Fin cfg1.N, win1_3.index t = ![q0.val, 0] :=
  (by decide +kernel : ∀ q0 : Fin 32, ∃ t : Fin grid1.N, win1_3.index t = ![q0.val, 0])

/-- What point `t` writes back is block `t` of the recurrence step of the arrays the region finds. -/
theorem flushed_eq1 (c : Dev nD) (t : Fin cfg1.N) :
    (dat1 (F := Ideal) V c).flushed 3 t = ((cfg1.win 3).blk t).view.read (Elt Ideal)
      (chebArr (Ideal.ofBits .f32 0x40000000#32) (Ideal.ofBits .f32 0xBF800000#32) (V c main_v2) (V c main_v5) (V c main_v1)) := by
  show (cfg1.win 3).cut (grid1.coords t) ((dat1 V c).after 3 t) = _
  rw [after1_3]
  unfold out1_3
  rw [View.canon_unit_zero hz]
  simp only [View.ld_unit_zero (S := S256x8192) hz, View.ld_unit_zero (S := S8192x1024) hz, View.ld_unit_zero (S := S256x1024) hz]
  rw [k1_pay1_eq]
  obtain ⟨e0, e1, e2, e3, e4, e5, e6, e7⟩ := idx_facts1 t
  funext j
  obtain ⟨p, q, rfl⟩ : ∃ (p : Fin 256) (q : Fin 1024), j = ix2 p q := ⟨j 0, j 1, eq_ix2 j⟩
  have hp := p.isLt
  have hq := q.isLt
  have hemb : ((cfg1.win 3).blk t).view.emb (ix2 p q)
      = ix2 (⟨win1_3.index t (0 : Fin 2) * 256 + p.val, by omega⟩ : Fin 8192) q := by
    funext a; apply Fin.ext
    match a with
    | ⟨0, _⟩ => show win1_3.index t (0 : Fin 2) * 256 + 1 * p.val = win1_3.index t (0 : Fin 2) * 256 + p.val; omega
    | ⟨1, _⟩ => show win1_3.index t (1 : Fin 2) * 1024 + 1 * q.val = q.val; omega
  show pay _ _ (iblk1 V c 0 t) (iblk1 V c 1 t) (iblk1 V c 2 t) (ix2 p q)
    = chebArr _ _ (V c main_v2) (V c main_v5) (V c main_v1) (((cfg1.win 3).blk t).view.emb (ix2 p q))
  rw [hemb]
  refine block_eq _ _ (V c main_v2) (V c main_v5) (V c main_v1) _ _ _ (win1_3.index t (0 : Fin 2)) e7 ?_ ?_ ?_ p q
  · intro p' k
    have hp' := p'.isLt
    show V c main_v2 (((cfg1.win 0).blk t).view.emb (ix2 p' k)) = _
    refine congrArg (V c main_v2) (funext fun a => Fin.ext ?_)
    match a with
    | ⟨0, _⟩ => show win1_0.index t (0 : Fin 2) * 256 + 1 * p'.val = win1_3.index t (0 : Fin 2) * 256 + p'.val; omega
    | ⟨1, _⟩ => show win1_0.index t (1 : Fin 2) * 8192 + 1 * k.val = k.val; omega
  · intro k q'
    show V c main_v5 (((cfg1.win 1).blk t).view.emb (ix2 k q')) = _
    refine congrArg (V c main_v5) (funext fun a => Fin.ext ?_)
    match a with
    | ⟨0, _⟩ => show win1_1.index t (0 : Fin 2) * 8192 + 1 * k.val = k.val; omega
    | ⟨1, _⟩ => show win1_1.index t (1 : Fin 2) * 1024 + 1 * q'.val = q'.val; omega
  · intro p' q'
    have hp' := p'.isLt
    show V c main_v1 (((cfg1.win 2).blk t).view.emb (ix2 p' q')) = _
    refine congrArg (V c main_v1) (funext fun a => Fin.ext ?_)
    match a with
    | ⟨0, _⟩ => show win1_2.index t (0 : Fin 2) * 256 + 1 * p'.val = win1_3.index t (0 : Fin 2) * 256 + p'.val; omega
    | ⟨1, _⟩ => show win1_2.index t (1 : Fin 2) * 1024 + 1 * q'.val = q'.val; omega

/-- An index of the output array is in point `t`'s block iff each coordinate is in the block's range on its axis. -/
theorem mem_blk1 (t : Fin cfg1.N) (i : S8192x1024.Idx) :
    i ∈ ((cfg1.win 3).blk t).view.set ↔ ∀ a : Fin 2, win1_3.index t a * S256x1024.size a ≤ (i a).val
      ∧ (i a).val < win1_3.index t a * S256x1024.size a + S256x1024.size a := by
  show i ∈ ((View.whole main_v6).slice (win1_3.rect t)).set ↔ _
  rw [View.set_slice_whole, Rect.mem_set_unit]
  exact Iff.rfl

/-- Every index of the output array is in the block of the point whose block index is its row over 256. -/
theorem cover1 (i : S8192x1024.Idx) :
    ∃ t : Fin cfg1.N, (cfg1.win 3).flush t = true ∧ i ∈ ((cfg1.win 3).blk t).view.set := by
  have hi0 : (i 0).val < 8192 := (i 0).isLt
  have hi1 : (i 1).val < 1024 := (i 1).isLt
  obtain ⟨t, ht⟩ := idx_onto1 ⟨(i 0).val / 256, by omega⟩
  have q0 : win1_3.index t (0 : Fin 2) = (i 0).val / 256 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 1024 ≤ (i 1).val ∧ (i 1).val < win1_3.index t (1 : Fin 2) * 1024 + 1024; omega

/-- REGION 1: the output array after the region is a later step, `2 · (L · X) + (−1) · P`, of the arrays the region finds. -/
theorem final1 (c : Dev nD) : (dat1 (F := Ideal) V c).arrAt 3 cfg1.N
    = chebArr (Ideal.ofBits .f32 0x40000000#32) (Ideal.ofBits .f32 0xBF800000#32) (V c main_v2) (V c main_v5) (V c main_v1) :=
  (dat1 V c).arrAt_eq_of_cover 3 _ (fun t _ => flushed_eq1 V c t) cover1

end Region1

/-! ## Region 2 -/

section Region2
variable (V : (c : Dev nD) → (b : Ref sig .tc) → Buf (Elt Ideal) ((c : Thread nD τ).loc b))

/-- The index maps over the 32 grid points: the Laplacian's and the previous signal's row blocks move with the
    output's row block, the current signal is read whole, and the output's block row stays below 32. -/
theorem idx_facts2 : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = win2_3.index t (0 : Fin 2) ∧ win2_2.index t (1 : Fin 2) = 0
    ∧ win2_3.index t (1 : Fin 2) = 0 ∧ win2_3.index t (0 : Fin 2) ≤ 31 :=
  (by decide +kernel : ∀ t : Fin grid2.N, _)

/-- Every one of the 32 row blocks of the output is some point's. -/
theorem idx_onto2 : ∀ q0 : Fin 32, ∃ t : Fin cfg2.N, win2_3.index t = ![q0.val, 0] :=
  (by decide +kernel : ∀ q0 : Fin 32, ∃ t : Fin grid2.N, win2_3.index t = ![q0.val, 0])

/-- What point `t` writes back is block `t` of the recurrence step of the arrays the region finds. -/
theorem flushed_eq2 (c : Dev nD) (t : Fin cfg2.N) :
    (dat2 (F := Ideal) V c).flushed 3 t = ((cfg2.win 3).blk t).view.read (Elt Ideal)
      (chebArr (Ideal.ofBits .f32 0x40000000#32) (Ideal.ofBits .f32 0xBF800000#32) (V c main_v2) (V c main_v7) (V c main_v4)) := by
  show (cfg2.win 3).cut (grid2.coords t) ((dat2 V c).after 3 t) = _
  rw [after2_3]
  unfold out2_3
  rw [View.canon_unit_zero hz]
  simp only [View.ld_unit_zero (S := S256x8192) hz, View.ld_unit_zero (S := S8192x1024) hz, View.ld_unit_zero (S := S256x1024) hz]
  rw [k2_pay1_eq]
  obtain ⟨e0, e1, e2, e3, e4, e5, e6, e7⟩ := idx_facts2 t
  funext j
  obtain ⟨p, q, rfl⟩ : ∃ (p : Fin 256) (q : Fin 1024), j = ix2 p q := ⟨j 0, j 1, eq_ix2 j⟩
  have hp := p.isLt
  have hq := q.isLt
  have hemb : ((cfg2.win 3).blk t).view.emb (ix2 p q)
      = ix2 (⟨win2_3.index t (0 : Fin 2) * 256 + p.val, by omega⟩ : Fin 8192) q := by
    funext a; apply Fin.ext
    match a with
    | ⟨0, _⟩ => show win2_3.index t (0 : Fin 2) * 256 + 1 * p.val = win2_3.index t (0 : Fin 2) * 256 + p.val; omega
    | ⟨1, _⟩ => show win2_3.index t (1 : Fin 2) * 1024 + 1 * q.val = q.val; omega
  show pay _ _ (iblk2 V c 0 t) (iblk2 V c 1 t) (iblk2 V c 2 t) (ix2 p q)
    = chebArr _ _ (V c main_v2) (V c main_v7) (V c main_v4) (((cfg2.win 3).blk t).view.emb (ix2 p q))
  rw [hemb]
  refine block_eq _ _ (V c main_v2) (V c main_v7) (V c main_v4) _ _ _ (win2_3.index t (0 : Fin 2)) e7 ?_ ?_ ?_ p q
  · intro p' k
    have hp' := p'.isLt
    show V c main_v2 (((cfg2.win 0).blk t).view.emb (ix2 p' k)) = _
    refine congrArg (V c main_v2) (funext fun a => Fin.ext ?_)
    match a with
    | ⟨0, _⟩ => show win2_0.index t (0 : Fin 2) * 256 + 1 * p'.val = win2_3.index t (0 : Fin 2) * 256 + p'.val; omega
    | ⟨1, _⟩ => show win2_0.index t (1 : Fin 2) * 8192 + 1 * k.val = k.val; omega
  · intro k q'
    show V c main_v7 (((cfg2.win 1).blk t).view.emb (ix2 k q')) = _
    refine congrArg (V c main_v7) (funext fun a => Fin.ext ?_)
    match a with
    | ⟨0, _⟩ => show win2_1.index t (0 : Fin 2) * 8192 + 1 * k.val = k.val; omega
    | ⟨1, _⟩ => show win2_1.index t (1 : Fin 2) * 1024 + 1 * q'.val = q'.val; omega
  · intro p' q'
    have hp' := p'.isLt
    show V c main_v4 (((cfg2.win 2).blk t).view.emb (ix2 p' q')) = _
    refine congrArg (V c main_v4) (funext fun a => Fin.ext ?_)
    match a with
    | ⟨0, _⟩ => show win2_2.index t (0 : Fin 2) * 256 + 1 * p'.val = win2_3.index t (0 : Fin 2) * 256 + p'.val; omega
    | ⟨1, _⟩ => show win2_2.index t (1 : Fin 2) * 1024 + 1 * q'.val = q'.val; omega

/-- An index of the output array is in point `t`'s block iff each coordinate is in the block's range on its axis. -/
theorem mem_blk2 (t : Fin cfg2.N) (i : S8192x1024.Idx) :
    i ∈ ((cfg2.win 3).blk t).view.set ↔ ∀ a : Fin 2, win2_3.index t a * S256x1024.size a ≤ (i a).val
      ∧ (i a).val < win2_3.index t a * S256x1024.size a + S256x1024.size a := by
  show i ∈ ((View.whole main_v8).slice (win2_3.rect t)).set ↔ _
  rw [View.set_slice_whole, Rect.mem_set_unit]
  exact Iff.rfl

/-- Every index of the output array is in the block of the point whose block index is its row over 256. -/
theorem cover2 (i : S8192x1024.Idx) :
    ∃ t : Fin cfg2.N, (cfg2.win 3).flush t = true ∧ i ∈ ((cfg2.win 3).blk t).view.set := by
  have hi0 : (i 0).val < 8192 := (i 0).isLt
  have hi1 : (i 1).val < 1024 := (i 1).isLt
  obtain ⟨t, ht⟩ := idx_onto2 ⟨(i 0).val / 256, by omega⟩
  have q0 : win2_3.index t (0 : Fin 2) = (i 0).val / 256 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 256 ≤ (i 0).val ∧ (i 0).val < win2_3.index t (0 : Fin 2) * 256 + 256; omega
  | ⟨1, _⟩ => show win2_3.index t (1 : Fin 2) * 1024 ≤ (i 1).val ∧ (i 1).val < win2_3.index t (1 : Fin 2) * 1024 + 1024; omega

/-- REGION 2: the output array after the region is a later step, `2 · (L · X) + (−1) · P`, of the arrays the region finds. -/
theorem final2 (c : Dev nD) : (dat2 (F := Ideal) V c).arrAt 3 cfg2.N
    = chebArr (Ideal.ofBits .f32 0x40000000#32) (Ideal.ofBits .f32 0xBF800000#32) (V c main_v2) (V c main_v7) (V c main_v4) :=
  (dat2 V c).arrAt_eq_of_cover 3 _ (fun t _ => flushed_eq2 V c t) cover2

end Region2

/-! ## Region 3 -/

section Region3
variable (V : (c : Dev nD) → (b : Ref sig .tc) → Buf (Elt Ideal) ((c : Thread nD τ).loc b))

/-- The index maps over the 32 grid points: the Laplacian's and the previous signal's row blocks move with the
    output's row block, the current signal is read whole, and the output's block row stays below 32. -/
theorem idx_facts3 : ∀ t : Fin cfg3.N,
    win3_0.index t (0 : Fin 2) = win3_3.index t (0 : Fin 2) ∧ win3_0.index t (1 : Fin 2) = 0
    ∧ win3_1.index t (0 : Fin 2) = 0 ∧ win3_1.index t (1 : Fin 2) = 0
    ∧ win3_2.index t (0 : Fin 2) = win3_3.index t (0 : Fin 2) ∧ win3_2.index t (1 : Fin 2) = 0
    ∧ win3_3.index t (1 : Fin 2) = 0 ∧ win3_3.index t (0 : Fin 2) ≤ 31 :=
  (by decide +kernel : ∀ t : Fin grid3.N, _)

/-- Every one of the 32 row blocks of the output is some point's. -/
theorem idx_onto3 : ∀ q0 : Fin 32, ∃ t : Fin cfg3.N, win3_3.index t = ![q0.val, 0] :=
  (by decide +kernel : ∀ q0 : Fin 32, ∃ t : Fin grid3.N, win3_3.index t = ![q0.val, 0])

/-- What point `t` writes back is block `t` of the recurrence step of the arrays the region finds. -/
theorem flushed_eq3 (c : Dev nD) (t : Fin cfg3.N) :
    (dat3 (F := Ideal) V c).flushed 3 t = ((cfg3.win 3).blk t).view.read (Elt Ideal)
      (chebArr (Ideal.ofBits .f32 0x40000000#32) (Ideal.ofBits .f32 0xBF800000#32) (V c main_v2) (V c main_v9) (V c main_v6)) := by
  show (cfg3.win 3).cut (grid3.coords t) ((dat3 V c).after 3 t) = _
  rw [after3_3]
  unfold out3_3
  rw [View.canon_unit_zero hz]
  simp only [View.ld_unit_zero (S := S256x8192) hz, View.ld_unit_zero (S := S8192x1024) hz, View.ld_unit_zero (S := S256x1024) hz]
  rw [k3_pay1_eq]
  obtain ⟨e0, e1, e2, e3, e4, e5, e6, e7⟩ := idx_facts3 t
  funext j
  obtain ⟨p, q, rfl⟩ : ∃ (p : Fin 256) (q : Fin 1024), j = ix2 p q := ⟨j 0, j 1, eq_ix2 j⟩
  have hp := p.isLt
  have hq := q.isLt
  have hemb : ((cfg3.win 3).blk t).view.emb (ix2 p q)
      = ix2 (⟨win3_3.index t (0 : Fin 2) * 256 + p.val, by omega⟩ : Fin 8192) q := by
    funext a; apply Fin.ext
    match a with
    | ⟨0, _⟩ => show win3_3.index t (0 : Fin 2) * 256 + 1 * p.val = win3_3.index t (0 : Fin 2) * 256 + p.val; omega
    | ⟨1, _⟩ => show win3_3.index t (1 : Fin 2) * 1024 + 1 * q.val = q.val; omega
  show pay _ _ (iblk3 V c 0 t) (iblk3 V c 1 t) (iblk3 V c 2 t) (ix2 p q)
    = chebArr _ _ (V c main_v2) (V c main_v9) (V c main_v6) (((cfg3.win 3).blk t).view.emb (ix2 p q))
  rw [hemb]
  refine block_eq _ _ (V c main_v2) (V c main_v9) (V c main_v6) _ _ _ (win3_3.index t (0 : Fin 2)) e7 ?_ ?_ ?_ p q
  · intro p' k
    have hp' := p'.isLt
    show V c main_v2 (((cfg3.win 0).blk t).view.emb (ix2 p' k)) = _
    refine congrArg (V c main_v2) (funext fun a => Fin.ext ?_)
    match a with
    | ⟨0, _⟩ => show win3_0.index t (0 : Fin 2) * 256 + 1 * p'.val = win3_3.index t (0 : Fin 2) * 256 + p'.val; omega
    | ⟨1, _⟩ => show win3_0.index t (1 : Fin 2) * 8192 + 1 * k.val = k.val; omega
  · intro k q'
    show V c main_v9 (((cfg3.win 1).blk t).view.emb (ix2 k q')) = _
    refine congrArg (V c main_v9) (funext fun a => Fin.ext ?_)
    match a with
    | ⟨0, _⟩ => show win3_1.index t (0 : Fin 2) * 8192 + 1 * k.val = k.val; omega
    | ⟨1, _⟩ => show win3_1.index t (1 : Fin 2) * 1024 + 1 * q'.val = q'.val; omega
  · intro p' q'
    have hp' := p'.isLt
    show V c main_v6 (((cfg3.win 2).blk t).view.emb (ix2 p' q')) = _
    refine congrArg (V c main_v6) (funext fun a => Fin.ext ?_)
    match a with
    | ⟨0, _⟩ => show win3_2.index t (0 : Fin 2) * 256 + 1 * p'.val = win3_3.index t (0 : Fin 2) * 256 + p'.val; omega
    | ⟨1, _⟩ => show win3_2.index t (1 : Fin 2) * 1024 + 1 * q'.val = q'.val; omega

/-- An index of the output array is in point `t`'s block iff each coordinate is in the block's range on its axis. -/
theorem mem_blk3 (t : Fin cfg3.N) (i : S8192x1024.Idx) :
    i ∈ ((cfg3.win 3).blk t).view.set ↔ ∀ a : Fin 2, win3_3.index t a * S256x1024.size a ≤ (i a).val
      ∧ (i a).val < win3_3.index t a * S256x1024.size a + S256x1024.size a := by
  show i ∈ ((View.whole main_v10).slice (win3_3.rect t)).set ↔ _
  rw [View.set_slice_whole, Rect.mem_set_unit]
  exact Iff.rfl

/-- Every index of the output array is in the block of the point whose block index is its row over 256. -/
theorem cover3 (i : S8192x1024.Idx) :
    ∃ t : Fin cfg3.N, (cfg3.win 3).flush t = true ∧ i ∈ ((cfg3.win 3).blk t).view.set := by
  have hi0 : (i 0).val < 8192 := (i 0).isLt
  have hi1 : (i 1).val < 1024 := (i 1).isLt
  obtain ⟨t, ht⟩ := idx_onto3 ⟨(i 0).val / 256, by omega⟩
  have q0 : win3_3.index t (0 : Fin 2) = (i 0).val / 256 := congrFun ht 0
  have q1 : win3_3.index t (1 : Fin 2) = 0 := congrFun ht 1
  refine ⟨t, flush3_3 t, ?_⟩
  rw [mem_blk3]
  intro a
  match a with
  | ⟨0, _⟩ => show win3_3.index t (0 : Fin 2) * 256 ≤ (i 0).val ∧ (i 0).val < win3_3.index t (0 : Fin 2) * 256 + 256; omega
  | ⟨1, _⟩ => show win3_3.index t (1 : Fin 2) * 1024 ≤ (i 1).val ∧ (i 1).val < win3_3.index t (1 : Fin 2) * 1024 + 1024; omega

/-- REGION 3: the output array after the region is a later step, `2 · (L · X) + (−1) · P`, of the arrays the region finds. -/
theorem final3 (c : Dev nD) : (dat3 (F := Ideal) V c).arrAt 3 cfg3.N
    = chebArr (Ideal.ofBits .f32 0x40000000#32) (Ideal.ofBits .f32 0xBF800000#32) (V c main_v2) (V c main_v9) (V c main_v6) :=
  (dat3 V c).arrAt_eq_of_cover 3 _ (fun t _ => flushed_eq3 V c t) cover3

end Region3

end Cert.KernelIdeal.ChebRegion

end
-- ==== Proof.FinalRegion.lean ====
/-
  The last region of the kernel's @main: the linear layer.

  The region's grid has 32 points. At point t the body reads row-block t (4096 rows) of each of the five
  Chebyshev matrices R₀ … R₄ (131072 × 64), the whole weight array W (5 × 64 × 128) and the whole bias row
  b (1 × 128), and writes row-block t of the result (131072 × 128):

    y[r, o] = ((((0 + ∑_c R₀[r,c]·W[0,c,o]) + ∑_c R₁[r,c]·W[1,c,o]) + … ) + ∑_c R₄[r,c]·W[4,c,o]) + b[0,o].

  Here this is proved index by index. First the body's payload at an index (p, o) of a block, over arbitrary
  blocks: each matrix product into a zero accumulator is the plain sum over the 64 contracted columns (the
  format changes are identities on the extended reals, and the cast [1,64,128] → [64,128] keeps the last two
  coordinates); the additions are taken in the body's own order. Then the blocks: a block's row p at point t
  is row 4096·t + p of its array, the five inputs and the output move together, the weights and the bias do
  not move; so what point t writes back is block t of ONE function of the arrays, `ChebSpec.finalArr`, and
  since the 32 output blocks tile the result, the result is that function.
-/
import proofs.«165978_j16449724743711_2_alg».proof.Proof.Gen.KernelIdeal.Frame
import proofs.«165978_j16449724743711_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.FinalRegion

open Cert.KernelIdeal Cert.KernelIdeal.Gen Idealize.ShloMosaic Idealize.ShloMosaic.TcCoe Idealize.SL.Sem
open Idealize.ShloMosaic.Pipeline (Dat)
open Idealize.ShloMosaic.ValueIdx
open Cert.ChebSpec (finalArr)

/-! ## The body's payload at an index -/

/-- The matrix product's operand indices at an output index and a contraction index, axis by axis:
    the left operand is read at (row of the output, contraction), the right at (contraction, column of the output). -/
theorem lhs_row (i : S4096x128.Idx) (q : dot_S4096x64_S64x128_S4096x128_1_0_0_1_n_n.contr.Idx) :
    (dot_S4096x64_S64x128_S4096x128_1_0_0_1_n_n.lhsIdx i q 0).val = (i 0).val := by
  unfold DotDims.lhsIdx
  rw [dif_neg (show ¬(0 : Fin S4096x64.rank) ∈ dot_S4096x64_S64x128_S4096x128_1_0_0_1_n_n.lhsBatch by decide),
    dif_pos (show (0 : Fin S4096x64.rank) ∈ dot_S4096x64_S64x128_S4096x128_1_0_0_1_n_n.lhsNonContracting by decide)]
  rfl
theorem lhs_col (i : S4096x128.Idx) (q : dot_S4096x64_S64x128_S4096x128_1_0_0_1_n_n.contr.Idx) :
    (dot_S4096x64_S64x128_S4096x128_1_0_0_1_n_n.lhsIdx i q 1).val = (q ⟨0, by decide⟩).val :=
  dot_S4096x64_S64x128_S4096x128_1_0_0_1_n_n.lhsIdx_val_of_single rfl i q
theorem rhs_row (i : S4096x128.Idx) (q : dot_S4096x64_S64x128_S4096x128_1_0_0_1_n_n.contr.Idx) :
    (dot_S4096x64_S64x128_S4096x128_1_0_0_1_n_n.rhsIdx i q 0).val = (q ⟨0, by decide⟩).val :=
  dot_S4096x64_S64x128_S4096x128_1_0_0_1_n_n.rhsIdx_val_of_single rfl i q
theorem rhs_col (i : S4096x128.Idx) (q : dot_S4096x64_S64x128_S4096x128_1_0_0_1_n_n.contr.Idx) :
    (dot_S4096x64_S64x128_S4096x128_1_0_0_1_n_n.rhsIdx i q 1).val = (i 1).val := by
  unfold DotDims.rhsIdx
  rw [dif_neg (show ¬(1 : Fin S64x128.rank) ∈ dot_S4096x64_S64x128_S4096x128_1_0_0_1_n_n.rhsBatch by decide),
    dif_pos (show (1 : Fin S64x128.rank) ∈ dot_S4096x64_S64x128_S4096x128_1_0_0_1_n_n.rhsNonContracting by decide)]
  rfl

/-- ONE product: a (4096 × 64) block times a (1 × 64 × 128) slice of the weights, accumulated into zero, read at
    (p, o), is the sum over the 64 contracted columns. -/
theorem product_apply (x : Vec Ideal S4096x64 .f32) (w : Vec Ideal S1x64x128 .f32)
    (h1 : S4096x64.ShapeCasts S4096x64) (h2 : FTy.bits .bf16 < FTy.bits .f32) (h3 : S1x64x128.ShapeCasts S64x128)
    (p : Fin 4096) (o : Fin 128) :
    matmul dot_S4096x64_S64x128_S4096x128_1_0_0_1_n_n none
        (truncf .bf16 (shapeCast S4096x64 x h1) h2 : FVec Ideal S4096x64 .bf16)
        (truncf .bf16 (shapeCast S64x128 w h3) h2 : FVec Ideal S64x128 .bf16)
        (constant (F := Ideal) S4096x128 .f32 0x00000000#32) (ix2 p o)
      = ∑ c : Fin 64, x (ix2 p c) * w (ix3 (0 : Fin 1) c o) := by
  rw [shapeCast_self]
  refine (Ideal.matmul_constant_zero_apply dot_S4096x64_S64x128_S4096x128_1_0_0_1_n_n none _ _ (ix2 p o)).trans ?_
  rw [← Equiv.sum_comp (contrEquiv1 dot_S4096x64_S64x128_S4096x128_1_0_0_1_n_n 64 rfl rfl).symm]
  refine Finset.sum_congr rfl fun k _ => ?_
  have hk := contrEquiv1_symm_val dot_S4096x64_S64x128_S4096x128_1_0_0_1_n_n 64 rfl rfl k
  have el : dot_S4096x64_S64x128_S4096x128_1_0_0_1_n_n.lhsIdx (ix2 p o)
      ((contrEquiv1 dot_S4096x64_S64x128_S4096x128_1_0_0_1_n_n 64 rfl rfl).symm k) = ix2 p k :=
    funext fun a => Fin.ext (by
      match a with
      | ⟨0, _⟩ => exact lhs_row _ _
      | ⟨1, _⟩ => exact (lhs_col _ _).trans hk)
  have er : dot_S4096x64_S64x128_S4096x128_1_0_0_1_n_n.rhsIdx (ix2 p o)
      ((contrEquiv1 dot_S4096x64_S64x128_S4096x128_1_0_0_1_n_n 64 rfl rfl).symm k) = ix2 k o :=
    funext fun a => Fin.ext (by
      match a with
      | ⟨0, _⟩ => exact (rhs_row _ _).trans hk
      | ⟨1, _⟩ => exact rhs_col _ _)
  rw [el, er, truncf_apply, truncf_apply]
  exact congrArg (x (ix2 p k) * ·) (shapeCast_1ab_ab_apply w h3 k o)

/-- The first four products, accumulated one after the other from the zero splat, at (p, o). -/
theorem pay2_apply (x0 x1 x2 x3 : Vec Ideal S4096x64 .f32) (w0 w1 w2 w3 : Vec Ideal S1x64x128 .f32)
    (p : Fin 4096) (o : Fin 128) :
    k4_pay2 (F := Ideal) x0 w0 x1 w1 x2 w2 x3 w3 (ix2 p o)
      = (((0 + ∑ c : Fin 64, x0 (ix2 p c) * w0 (ix3 (0 : Fin 1) c o))
          + ∑ c : Fin 64, x1 (ix2 p c) * w1 (ix3 (0 : Fin 1) c o))
          + ∑ c : Fin 64, x2 (ix2 p c) * w2 (ix3 (0 : Fin 1) c o))
          + ∑ c : Fin 64, x3 (ix2 p c) * w3 (ix3 (0 : Fin 1) c o) := by
  unfold k4_pay2
  simp only [addf_apply, broadcast_apply, product_apply]
  rw [Ideal.ofBits_def, Ideal.ofBits_zero_f32]

/-- The whole payload at (p, o): the fifth product added to what came before, then the bias row. -/
theorem pay1_apply (acc : FVec Ideal S4096x128 .f32) (x4 : Vec Ideal S4096x64 .f32) (w4 : Vec Ideal S1x64x128 .f32)
    (b : Vec Ideal S1x128 .f32) (p : Fin 4096) (o : Fin 128) :
    k4_pay1 (F := Ideal) acc x4 w4 b (ix2 p o)
      = (acc (ix2 p o) + ∑ c : Fin 64, x4 (ix2 p c) * w4 (ix3 (0 : Fin 1) c o)) + b (ix2 (0 : Fin 1) o) := by
  unfold k4_pay1
  simp only [addf_apply, product_apply]
  simp only [shapeCast_self, broadcastTo_1b_ab_apply]

/-! ## The body's result at an index of the output block, from the input blocks -/

theorem hz2 : (![0, 0] : Fin 2 → Nat) = fun _ => 0 := funext fun a => by fin_cases a <;> rfl

/-- Slice k of the weights, loaded as a (1 × 64 × 128) vector: its element (0, c, o) is element (k, c, o) of the block. -/
theorem ld_weight_slice (x5 : Vec Ideal S5x64x128 .f32) (k : Fin 5)
    (inb : ∀ a, (![k.val, 0, 0] : Fin 3 → Nat) a + S1x64x128.size a ≤ S5x64x128.size a) (c : Fin 64) (o : Fin 128) :
    View.ld x5 (Rect.unit (s := S5x64x128) ![k.val, 0, 0] S1x64x128.size inb) (ix3 (0 : Fin 1) c o) = x5 (ix3 k c o) := by
  show x5 _ = x5 _
  refine congrArg x5 (funext fun a => Fin.ext ?_)
  match a with
  | ⟨0, _⟩ => show k.val + 1 * 0 = k.val; omega
  | ⟨1, _⟩ => show 0 + 1 * c.val = c.val; omega
  | ⟨2, _⟩ => show 0 + 1 * o.val = o.val; omega

/-- What the body leaves in the output block at (p, o), from the seven input blocks. -/
theorem body_apply (x0 x1 x2 x3 x4 : Vec Ideal S4096x64 .f32) (x5 : Vec Ideal S5x64x128 .f32) (x6 : Vec Ideal S1x128 .f32)
    (p : Fin 4096) (o : Fin 128) :
    out4_7 (F := Ideal) x0 x1 x2 x3 x4 x5 x6 (ix2 p o)
      = (((((0 + ∑ c : Fin 64, x0 (ix2 p c) * x5 (ix3 (0 : Fin 5) c o))
          + ∑ c : Fin 64, x1 (ix2 p c) * x5 (ix3 (1 : Fin 5) c o))
          + ∑ c : Fin 64, x2 (ix2 p c) * x5 (ix3 (2 : Fin 5) c o))
          + ∑ c : Fin 64, x3 (ix2 p c) * x5 (ix3 (3 : Fin 5) c o))
          + ∑ c : Fin 64, x4 (ix2 p c) * x5 (ix3 (4 : Fin 5) c o))
        + x6 (ix2 (0 : Fin 1) o) := by
  have e0 : ∀ c : Fin 64, View.ld x5 r4_1 (ix3 (0 : Fin 1) c o) = x5 (ix3 (0 : Fin 5) c o) := fun c => ld_weight_slice x5 0 _ c o
  have e1 : ∀ c : Fin 64, View.ld x5 r4_2 (ix3 (0 : Fin 1) c o) = x5 (ix3 (1 : Fin 5) c o) := fun c => ld_weight_slice x5 1 _ c o
  have e2 : ∀ c : Fin 64, View.ld x5 r4_3 (ix3 (0 : Fin 1) c o) = x5 (ix3 (2 : Fin 5) c o) := fun c => ld_weight_slice x5 2 _ c o
  have e3 : ∀ c : Fin 64, View.ld x5 r4_4 (ix3 (0 : Fin 1) c o) = x5 (ix3 (3 : Fin 5) c o) := fun c => ld_weight_slice x5 3 _ c o
  have e4 : ∀ c : Fin 64, View.ld x5 r4_5 (ix3 (0 : Fin 1) c o) = x5 (ix3 (4 : Fin 5) c o) := fun c => ld_weight_slice x5 4 _ c o
  unfold out4_7
  rw [View.canon_unit_zero hz2]
  simp only [View.ld_unit_zero (S := S4096x64) hz2, View.ld_unit_zero (S := S1x128) hz2]
  rw [pay1_apply, pay2_apply]
  simp only [e0, e1, e2, e3, e4]

/-- The same as one function of whole arrays: when row p of each (4096 × 64) block is row (i 0) of its array, the
    weight block is the weight array at the output's column and the bias block the bias row there, the body's result at
    (p, o) is the linear layer at i. -/
theorem body_eq_finalArr (R0 R1 R2 R3 R4 : S131072x64.Idx → EReal) (W : S5x64x128.Idx → EReal) (b : S1x128.Idx → EReal)
    (x0 x1 x2 x3 x4 : Vec Ideal S4096x64 .f32) (x5 : Vec Ideal S5x64x128 .f32) (x6 : Vec Ideal S1x128 .f32)
    (p : Fin 4096) (o : Fin 128) (i : S131072x128.Idx)
    (h0 : ∀ c : Fin 64, x0 (ix2 p c) = R0 (ix2 (i 0) c)) (h1 : ∀ c : Fin 64, x1 (ix2 p c) = R1 (ix2 (i 0) c))
    (h2 : ∀ c : Fin 64, x2 (ix2 p c) = R2 (ix2 (i 0) c)) (h3 : ∀ c : Fin 64, x3 (ix2 p c) = R3 (ix2 (i 0) c))
    (h4 : ∀ c : Fin 64, x4 (ix2 p c) = R4 (ix2 (i 0) c))
    (h5 : ∀ (k : Fin 5) (c : Fin 64), x5 (ix3 k c o) = W (ix3 k c (i 1)))
    (h6 : x6 (ix2 (0 : Fin 1) o) = b (ix2 (0 : Fin 1) (i 1))) :
    out4_7 (F := Ideal) x0 x1 x2 x3 x4 x5 x6 (ix2 p o) = finalArr R0 R1 R2 R3 R4 W b i := by
  rw [body_apply]
  unfold finalArr
  simp only [h0, h1, h2, h3, h4, h5, h6]

/-! ## From blocks to the array -/

section Blocks
variable (V : (c : Dev nD) → (b : Ref sig .tc) → Buf (Elt Ideal) ((c : Thread nD τ).loc b))

/-- The printed index maps, decided over the grid: the five inputs' row-blocks move with the output's, on the column
    axis every block index is 0, the weights and the bias stay at block 0, and the output's row-block index is below 32. -/
theorem idx_facts : ∀ t : Fin cfg4.N,
    (win4_0.index t (0 : Fin 2) = win4_7.index t (0 : Fin 2) ∧ win4_0.index t (1 : Fin 2) = 0)
    ∧ (win4_1.index t (0 : Fin 2) = win4_7.index t (0 : Fin 2) ∧ win4_1.index t (1 : Fin 2) = 0)
    ∧ (win4_2.index t (0 : Fin 2) = win4_7.index t (0 : Fin 2) ∧ win4_2.index t (1 : Fin 2) = 0)
    ∧ (win4_3.index t (0 : Fin 2) = win4_7.index t (0 : Fin 2) ∧ win4_3.index t (1 : Fin 2) = 0)
    ∧ (win4_4.index t (0 : Fin 2) = win4_7.index t (0 : Fin 2) ∧ win4_4.index t (1 : Fin 2) = 0)
    ∧ (win4_5.index t (0 : Fin 3) = 0 ∧ win4_5.index t (1 : Fin 3) = 0 ∧ win4_5.index t (2 : Fin 3) = 0)
    ∧ (win4_6.index t (0 : Fin 2) = 0 ∧ win4_6.index t (1 : Fin 2) = 0)
    ∧ win4_7.index t (1 : Fin 2) = 0 ∧ win4_7.index t (0 : Fin 2) ≤ 31 :=
  (by decide +kernel : ∀ t : Fin grid4.N, _)

/-- Every row-block of the result is SOME point's. -/
theorem idx_onto : ∀ q0 : Fin 32, ∃ t : Fin cfg4.N, win4_7.index t = ![q0.val, 0] :=
  (by decide +kernel : ∀ q0 : Fin 32, ∃ t : Fin grid4.N, win4_7.index t = ![q0.val, 0])

/-- WHAT POINT t WRITES BACK is block t of the linear layer of the arrays as the region finds them. -/
theorem flushed_eq4 (c : Dev nD) (t : Fin cfg4.N) :
    (dat4 (F := Ideal) V c).flushed 7 t = ((cfg4.win 7).blk t).view.read (Elt Ideal)
      (finalArr (V c main_v11) (V c main_v12) (V c main_v13) (V c main_v14) (V c main_v15) (V c main_v17) (V c main_v18)) := by
  show (cfg4.win 7).cut (grid4.coords t) ((dat4 V c).after 7 t) = _
  rw [after4_7]
  obtain ⟨⟨a0, b0⟩, ⟨a1, b1⟩, ⟨a2, b2⟩, ⟨a3, b3⟩, ⟨a4, b4⟩, ⟨a5, b5, c5⟩, ⟨a6, b6⟩, b7, le7⟩ := idx_facts t
  funext j
  obtain ⟨p, o, rfl⟩ : ∃ (p : Fin 4096) (o : Fin 128), j = ix2 p o := ⟨j 0, j 1, eq_ix2 j⟩
  have hp : p.val < 4096 := p.isLt
  have ho : o.val < 128 := o.isLt
  refine body_eq_finalArr _ _ _ _ _ _ _ _ _ _ _ _ _ _ p o (((cfg4.win 7).blk t).view.emb (ix2 p o)) ?_ ?_ ?_ ?_ ?_ ?_ ?_
  · intro c'
    show V c main_v11 (((cfg4.win 0).blk t).view.emb (ix2 p c')) = V c main_v11 _
    refine congrArg _ (funext fun a => Fin.ext ?_)
    match a with
    | ⟨0, _⟩ => show win4_0.index t (0 : Fin 2) * 4096 + 1 * p.val = win4_7.index t (0 : Fin 2) * 4096 + 1 * p.val; omega
    | ⟨1, _⟩ => show win4_0.index t (1 : Fin 2) * 64 + 1 * c'.val = c'.val; omega
  · intro c'
    show V c main_v12 (((cfg4.win 1).blk t).view.emb (ix2 p c')) = V c main_v12 _
    refine congrArg _ (funext fun a => Fin.ext ?_)
    match a with
    | ⟨0, _⟩ => show win4_1.index t (0 : Fin 2) * 4096 + 1 * p.val = win4_7.index t (0 : Fin 2) * 4096 + 1 * p.val; omega
    | ⟨1, _⟩ => show win4_1.index t (1 : Fin 2) * 64 + 1 * c'.val = c'.val; omega
  · intro c'
    show V c main_v13 (((cfg4.win 2).blk t).view.emb (ix2 p c')) = V c main_v13 _
    refine congrArg _ (funext fun a => Fin.ext ?_)
    match a with
    | ⟨0, _⟩ => show win4_2.index t (0 : Fin 2) * 4096 + 1 * p.val = win4_7.index t (0 : Fin 2) * 4096 + 1 * p.val; omega
    | ⟨1, _⟩ => show win4_2.index t (1 : Fin 2) * 64 + 1 * c'.val = c'.val; omega
  · intro c'
    show V c main_v14 (((cfg4.win 3).blk t).view.emb (ix2 p c')) = V c main_v14 _
    refine congrArg _ (funext fun a => Fin.ext ?_)
    match a with
    | ⟨0, _⟩ => show win4_3.index t (0 : Fin 2) * 4096 + 1 * p.val = win4_7.index t (0 : Fin 2) * 4096 + 1 * p.val; omega
    | ⟨1, _⟩ => show win4_3.index t (1 : Fin 2) * 64 + 1 * c'.val = c'.val; omega
  · intro c'
    show V c main_v15 (((cfg4.win 4).blk t).view.emb (ix2 p c')) = V c main_v15 _
    refine congrArg _ (funext fun a => Fin.ext ?_)
    match a with
    | ⟨0, _⟩ => show win4_4.index t (0 : Fin 2) * 4096 + 1 * p.val = win4_7.index t (0 : Fin 2) * 4096 + 1 * p.val; omega
    | ⟨1, _⟩ => show win4_4.index t (1 : Fin 2) * 64 + 1 * c'.val = c'.val; omega
  · intro k c'
    show V c main_v17 (((cfg4.win 5).blk t).view.emb (ix3 k c' o)) = V c main_v17 _
    refine congrArg _ (funext fun a => Fin.ext ?_)
    match a with
    | ⟨0, _⟩ => show win4_5.index t (0 : Fin 3) * 5 + 1 * k.val = k.val; omega
    | ⟨1, _⟩ => show win4_5.index t (1 : Fin 3) * 64 + 1 * c'.val = c'.val; omega
    | ⟨2, _⟩ => show win4_5.index t (2 : Fin 3) * 128 + 1 * o.val = win4_7.index t (1 : Fin 2) * 128 + 1 * o.val; omega
  · show V c main_v18 (((cfg4.win 6).blk t).view.emb (ix2 (0 : Fin 1) o)) = V c main_v18 _
    refine congrArg _ (funext fun a => Fin.ext ?_)
    match a with
    | ⟨0, _⟩ => show win4_6.index t (0 : Fin 2) * 1 + 1 * 0 = 0; omega
    | ⟨1, _⟩ => show win4_6.index t (1 : Fin 2) * 128 + 1 * o.val = win4_7.index t (1 : Fin 2) * 128 + 1 * o.val; omega

/-- An index of the result is in point t's block iff each coordinate is in the block's range on its axis. -/
theorem mem_blk4 (t : Fin cfg4.N) (i : S131072x128.Idx) :
    i ∈ ((cfg4.win 7).blk t).view.set ↔ ∀ a : Fin 2, win4_7.index t a * S4096x128.size a ≤ (i a).val ∧ (i a).val < win4_7.index t a * S4096x128.size a + S4096x128.size a := by
  show i ∈ ((View.whole main_v19).slice (win4_7.rect t)).set ↔ _
  rw [View.set_slice_whole, Rect.mem_set_unit]
  exact Iff.rfl

/-- The 32 row-blocks tile the result: row r is in the block of the point whose block index is r / 4096. -/
theorem cover4 (i : S131072x128.Idx) : ∃ t : Fin cfg4.N, (cfg4.win 7).flush t = true ∧ i ∈ ((cfg4.win 7).blk t).view.set := by
  have hi0 : (i 0).val < 131072 := (i 0).isLt
  have hi1 : (i 1).val < 128 := (i 1).isLt
  obtain ⟨t, ht⟩ := idx_onto ⟨(i 0).val / 4096, by omega⟩
  have q0 : win4_7.index t (0 : Fin 2) = (i 0).val / 4096 := congrFun ht 0
  have q1 : win4_7.index t (1 : Fin 2) = 0 := congrFun ht 1
  refine ⟨t, flush4_7 t, ?_⟩
  rw [mem_blk4]
  intro a
  match a with
  | ⟨0, _⟩ => show win4_7.index t (0 : Fin 2) * 4096 ≤ (i 0).val ∧ (i 0).val < win4_7.index t (0 : Fin 2) * 4096 + 4096; omega
  | ⟨1, _⟩ => show win4_7.index t (1 : Fin 2) * 128 ≤ (i 1).val ∧ (i 1).val < win4_7.index t (1 : Fin 2) * 128 + 128; omega

/-- THE RESULT ARRAY after the region: the linear layer of the seven arrays the region finds, index by index. -/
theorem final4 (c : Dev nD) :
    (dat4 (F := Ideal) V c).arrAt 7 cfg4.N
      = finalArr (V c main_v11) (V c main_v12) (V c main_v13) (V c main_v14) (V c main_v15) (V c main_v17) (V c main_v18) :=
  (dat4 (F := Ideal) V c).arrAt_eq_of_cover 7
    (finalArr (V c main_v11) (V c main_v12) (V c main_v13) (V c main_v14) (V c main_v15) (V c main_v17) (V c main_v18))
    (fun t _ => flushed_eq4 V c t) cover4

end Blocks

end Cert.KernelIdeal.FinalRegion

end
-- ==== Proof.KernelValue.lean ====
/-
  The kernel's composition of whole-array functions IS the specification's result.

  The kernel lays a signal out as a matrix with the batch as the slow axis of the 1024 columns: column `j` is
  batch `j div 64`, channel `j mod 64`.  In that layout the matrix X₀ is the signal T₀, and a recurrence step on
  matrices is the step on signals, because the Laplacian acts on rows and every column is its own (b, c).  With
  (α, β) = (1, 0) the step is `L·X` and with (2, −1) it is `2·(L·X) − P`, so X₁ … X₄ are T₁ … T₄.  Row
  `v·16 + b` of the (131072 × 64) view of a matrix is its columns of batch `b` at vertex `v`; the weights are
  `W[k, c, o] = w[o, c·5 + k]`.  The linear layer adds, from zero, the five sums over the 64 channels; by
  commutativity and associativity of + that is the one sum over the 320 features `j = c·5 + k`.
-/
import proofs.«165978_j16449724743711_2_alg».proof.Proof.Arrays
import Idealize.ShloMosaic.Lib.Pipeline.Value
import Idealize.ShloMosaic.Lib.ValueIdx
import Idealize.ShloMosaic.PureOps.Ideal.Laws

noncomputable section

namespace Cert.KernelIdeal.KernelValue

open Cert.KernelIdeal Cert.KernelIdeal.Gen Cert.KernelIdeal.Arrays Cert.ChebSpec
open Idealize.ShloMosaic Idealize.ShloMosaic.ValueIdx

/-- Column `j` of a signal matrix is batch `j div 64` … -/
abbrev colB (j : Fin 1024) : Fin 16 := ⟨j.val / 64, by have := j.isLt; omega⟩
/-- … and channel `j mod 64`. -/
abbrev colC (j : Fin 1024) : Fin 64 := ⟨j.val % 64, by omega⟩
/-- Row `v·16 + b` of the (131072 × 64) view. -/
abbrev rowVB (v : Fin 8192) (b : Fin 16) : Fin 131072 := ⟨v.val * 16 + b.val, by have := v.isLt; have := b.isLt; omega⟩
/-- Column `b·64 + c` of a signal matrix. -/
abbrev colBC (b : Fin 16) (c : Fin 64) : Fin 1024 := ⟨b.val * 64 + c.val, by have := b.isLt; have := c.isLt; omega⟩
/-- Feature `c·5 + k`. -/
abbrev feat (c : Fin 64) (k : Fin 5) : Fin 320 := ⟨c.val * 5 + k.val, by have := c.isLt; have := k.isLt; omega⟩

theorem colB_colBC (b : Fin 16) (c : Fin 64) : colB (colBC b c) = b :=
  Fin.ext (by have := b.isLt; have := c.isLt; show (b.val * 64 + c.val) / 64 = b.val; omega)
theorem colC_colBC (b : Fin 16) (c : Fin 64) : colC (colBC b c) = c :=
  Fin.ext (by have := b.isLt; have := c.isLt; show (b.val * 64 + c.val) % 64 = c.val; omega)
theorem feat_chan_order (j : Fin 320) : feat (chan j) (order j) = j :=
  Fin.ext (by show j.val / 5 * 5 + j.val % 5 = j.val; omega)

/-! ## The signal matrices are the Chebyshev signals, batch-major -/

/-- `X₀[v, j] = x[j div 64, j mod 64, v]`. -/
theorem X0_read (a0 : FVec Ideal S16x64x8192 .f32) (v : Fin 8192) (j : Fin 1024) :
    X0 a0 (ix2 v j) = T0 a0 v (colB j) (colC j) := by
  have hj := j.isLt
  have hv := v.isLt
  unfold X0
  rw [shapeCast_apply _ shapeCasts_S8192x16x64_S8192x1024 (ix2 v j) (ix3 v (colB j) (colC j)) (by
    rw [Shape.rowMajor_val_three, Shape.rowMajor_val_two]
    show (v.val * 16 + j.val / 64) * 64 + j.val % 64 = v.val * 1024 + j.val
    omega)]
  exact transpose_apply [2, 0, 1] a0 transposes_S16x64x8192_S8192x16x64_2_0_1 (ix3 v (colB j) (colC j)) (ix3 (colB j) (colC j) v)
    (fun b => match b with
      | ⟨0, _⟩ => rfl
      | ⟨1, _⟩ => rfl
      | ⟨2, _⟩ => rfl)

/-- The change of format is the identity on the extended reals. -/
theorem Lb_eq (a1 : FVec Ideal S8192x8192 .f32) : Lb a1 = a1 := rfl

/-- A step on matrices is the step on signals: rows are vertices and a column keeps its (b, c). -/
theorem cheb_read (α β : EReal) (L : (⟨2, ![8192, 8192]⟩ : Shape).Idx → EReal) (X P : (⟨2, ![8192, 1024]⟩ : Shape).Idx → EReal)
    (TX TP : Signal) (hX : ∀ v j, X (ix2 v j) = TX v (colB j) (colC j)) (hP : ∀ v j, P (ix2 v j) = TP v (colB j) (colC j))
    (v : Fin 8192) (j : Fin 1024) : chebArr α β L X P (ix2 v j) = step α β L TX TP v (colB j) (colC j) := by
  show α * (∑ k : Fin 8192, L (ix2 v k) * X (ix2 k j)) + β * P (ix2 v j)
    = α * (∑ k : Fin 8192, L (ix2 v k) * TX k (colB j) (colC j)) + β * TP v (colB j) (colC j)
  rw [hP]
  refine congrArg (fun s => α * s + β * TP v (colB j) (colC j)) (Finset.sum_congr rfl fun k _ => ?_)
  rw [hX]

theorem X1_read (a0 : FVec Ideal S16x64x8192 .f32) (a1 : FVec Ideal S8192x8192 .f32) (v : Fin 8192) (j : Fin 1024) :
    X1 a0 a1 (ix2 v j) = T1 a1 a0 v (colB j) (colC j) := by
  unfold X1
  rw [cheb_read _ _ _ (cut (X0 a0)) (X0 a0) (T0 a0) (T0 a0) (X0_read a0) (X0_read a0) v j, ofBits_one, Ideal.ofBits_zero_f32,
    step_one_zero, Lb_eq]
  rfl

theorem X2_read (a0 : FVec Ideal S16x64x8192 .f32) (a1 : FVec Ideal S8192x8192 .f32) (v : Fin 8192) (j : Fin 1024) :
    X2 a0 a1 (ix2 v j) = T2 a1 a0 v (colB j) (colC j) := by
  unfold X2
  rw [cheb_read _ _ _ (cut (X1 a0 a1)) (X0 a0) (T1 a1 a0) (T0 a0) (X1_read a0 a1) (X0_read a0) v j, ofBits_neg_one, step_two_neg_one, Lb_eq]
  rfl

theorem X3_read (a0 : FVec Ideal S16x64x8192 .f32) (a1 : FVec Ideal S8192x8192 .f32) (v : Fin 8192) (j : Fin 1024) :
    X3 a0 a1 (ix2 v j) = T3 a1 a0 v (colB j) (colC j) := by
  unfold X3
  rw [cheb_read _ _ _ (cut (X2 a0 a1)) (X1 a0 a1) (T2 a1 a0) (T1 a1 a0) (X2_read a0 a1) (X1_read a0 a1) v j, ofBits_neg_one, step_two_neg_one, Lb_eq]
  rfl

theorem X4_read (a0 : FVec Ideal S16x64x8192 .f32) (a1 : FVec Ideal S8192x8192 .f32) (v : Fin 8192) (j : Fin 1024) :
    X4 a0 a1 (ix2 v j) = T4 a1 a0 v (colB j) (colC j) := by
  unfold X4
  rw [cheb_read _ _ _ (cut (X3 a0 a1)) (X2 a0 a1) (T3 a1 a0) (T2 a1 a0) (X3_read a0 a1) (X2_read a0 a1) v j, ofBits_neg_one, step_two_neg_one, Lb_eq]
  rfl

/-! ## The views the linear layer reads -/

/-- Row `v·16 + b`, column `c` of the view is the matrix at `(v, b·64 + c)`. -/
theorem rows_read (X : FVec Ideal S8192x1024 .f32) (v : Fin 8192) (b : Fin 16) (c : Fin 64) :
    rows X (ix2 (rowVB v b) c) = X (ix2 v (colBC b c)) :=
  shapeCast_apply X shapeCasts_S8192x1024_S131072x64 (ix2 (rowVB v b) c) (ix2 v (colBC b c)) (by
    have := v.isLt
    have := b.isLt
    have := c.isLt
    rw [Shape.rowMajor_val_two, Shape.rowMajor_val_two]
    show v.val * 1024 + (b.val * 64 + c.val) = (v.val * 16 + b.val) * 64 + c.val
    omega)

/-- `W[k, c, o] = w[o, c·5 + k]`. -/
theorem Wt_read (a2 : FVec Ideal S128x320 .f32) (k : Fin 5) (c : Fin 64) (o : Fin 128) :
    Wt a2 (ix3 k c o) = a2 (ix2 o (feat c k)) := by
  unfold Wt
  rw [transpose_apply [2, 1, 0] _ transposes_S128x64x5_S5x64x128_2_1_0 (ix3 k c o) (ix3 o c k)
    (fun b => match b with
      | ⟨0, _⟩ => rfl
      | ⟨1, _⟩ => rfl
      | ⟨2, _⟩ => rfl)]
  exact shapeCast_apply a2 shapeCasts_S128x320_S128x64x5 (ix3 o c k) (ix2 o (feat c k)) (by
    have := o.isLt
    have := c.isLt
    have := k.isLt
    rw [Shape.rowMajor_val_two, Shape.rowMajor_val_three]
    show o.val * 320 + (c.val * 5 + k.val) = (o.val * 64 + c.val) * 5 + k.val
    omega)

/-- The bias row. -/
theorem B2_read (a3 : FVec Ideal S128 .f32) (o : Fin 128) : B2 a3 (ix2 (0 : Fin 1) o) = a3 (ix1 o) :=
  shapeCast_apply a3 shapeCasts_S128_S1x128 (ix2 (0 : Fin 1) o) (ix1 o) (by
    rw [Shape.rowMajor_val_one, Shape.rowMajor_val_two]
    show o.val = (0 : Fin 1).val * 128 + o.val
    simp)

/-! ## The result -/

/-- THE KERNEL'S COMPOSITION IS THE SPECIFICATION: index by index the five sums over the channels, added from zero,
    are the one sum over the 320 features. -/
theorem OUT_eq (a0 : FVec Ideal S16x64x8192 .f32) (a1 : FVec Ideal S8192x8192 .f32) (a2 : FVec Ideal S128x320 .f32)
    (a3 : FVec Ideal S128 .f32) : OUT a0 a1 a2 a3 = G a0 a1 a2 a3 := by
  funext i
  obtain ⟨b, o, v, rfl⟩ : ∃ (b : Fin 16) (o : Fin 128) (v : Fin 8192), i = ix3 b o v := ⟨i 0, i 1, i 2, eq_ix3 i⟩
  have hb := b.isLt
  have ho := o.isLt
  have hv := v.isLt
  unfold OUT
  rw [transpose_apply [1, 2, 0] _ transposes_S8192x16x128_S16x128x8192_1_2_0 (ix3 b o v) (ix3 v b o)
    (fun d => match d with
      | ⟨0, _⟩ => rfl
      | ⟨1, _⟩ => rfl
      | ⟨2, _⟩ => rfl)]
  rw [shapeCast_apply (Y a0 a1 a2 a3) shapeCasts_S131072x128_S8192x16x128 (ix3 v b o) (ix2 (rowVB v b) o) (by
    rw [Shape.rowMajor_val_two, Shape.rowMajor_val_three]
    show (v.val * 16 + b.val) * 128 + o.val = (v.val * 16 + b.val) * 128 + o.val
    rfl)]
  -- the linear layer at row `v·16 + b`, column `o`
  show (((((0 + ∑ c : Fin 64, rows (X0 a0) (ix2 (rowVB v b) c) * Wt a2 (ix3 (0 : Fin 5) c o))
      + ∑ c : Fin 64, rows (X1 a0 a1) (ix2 (rowVB v b) c) * Wt a2 (ix3 (1 : Fin 5) c o))
      + ∑ c : Fin 64, rows (X2 a0 a1) (ix2 (rowVB v b) c) * Wt a2 (ix3 (2 : Fin 5) c o))
      + ∑ c : Fin 64, rows (X3 a0 a1) (ix2 (rowVB v b) c) * Wt a2 (ix3 (3 : Fin 5) c o))
      + ∑ c : Fin 64, rows (X4 a0 a1) (ix2 (rowVB v b) c) * Wt a2 (ix3 (4 : Fin 5) c o))
    + B2 a3 (ix2 (0 : Fin 1) o)
    = (∑ j : Fin 320, T a1 a0 (order j) v b (chan j) * a2 (ix2 o j)) + a3 (ix1 o)
  simp only [rows_read, X0_read, X1_read, X2_read, X3_read, X4_read, colB_colBC, colC_colBC, Wt_read, B2_read]
  -- the one sum over the features, split by order and channel
  have hsplit : (∑ j : Fin 320, T a1 a0 (order j) v b (chan j) * a2 (ix2 o j))
      = ∑ k : Fin 5, ∑ c : Fin 64, T a1 a0 k v b c * a2 (ix2 o (feat c k)) := by
    rw [← sum_features fun k c => T a1 a0 k v b c * a2 (ix2 o (feat c k))]
    refine Finset.sum_congr rfl fun j _ => ?_
    rw [feat_chan_order]
  rw [hsplit, Fin.sum_univ_five, zero_add]
  rfl

end Cert.KernelIdeal.KernelValue

end
-- ==== Proof.RefValue.lean ====
/-
  The reference program computes the specification's function `G`.

  The reference lays a signal out as a matrix with one row per vertex and 1024 columns, column `c·16 + b` holding
  channel `c` of batch `b`.  In that layout its first five matrices are the Chebyshev signals `T₀ … T₄`
  (`T₀` the input, `T₁ = L·T₀`, `Tₙ₊₁ = 2·(L·Tₙ) − Tₙ₋₁`).  It stacks them, reorders the stack into the
  feature matrix whose row `b·8192 + v` and column `f` hold the signal of order `f mod 5` at vertex `v`, batch
  `b`, channel `f div 5`, multiplies by the transposed weight, adds the bias row, and reorders the rows
  `(b, v)` and the column `o` into the result `[b, o, v]`.  Every step is read at an index with explicit
  coordinates; the only arithmetic is quotients and remainders of the row-major numberings.
-/
import proofs.«165978_j16449724743711_2_alg».proof.Proof.Gen.ReferenceIdeal.Read
import proofs.«165978_j16449724743711_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.ChebSpec

/-- The batch of column `j = c·16 + b` of the channel-major signal matrix. -/
abbrev colB (j : Fin 1024) : Fin 16 := ⟨j.val % 16, by omega⟩
/-- The channel of column `j = c·16 + b`. -/
abbrev colC (j : Fin 1024) : Fin 64 := ⟨j.val / 16, by have := j.isLt; omega⟩

/-- The signal matrix of the input: entry `(v, c·16 + b)` is `x[b, c, v]`. -/
theorem sig0 (x0 : (⟨S16x64x8192, .f32⟩ : BufTy).Contents (Elt Ideal)) (v : Fin 8192) (j : Fin 1024) :
    val_main_v1 (F := Ideal) x0 (ix2 v j) = T0 x0 v (colB j) (colC j) := by
  rw [val_main_v1_apply, val_main_v0_apply]
  unfold T0 signal0
  congr 1
  funext a
  apply Fin.ext
  have hv := v.isLt
  have hj := j.isLt
  match a with
  | ⟨0, _⟩ => show (v.val * 1024 + j.val) % 16 = j.val % 16; omega
  | ⟨1, _⟩ => show (v.val * 1024 + j.val) / 16 % 64 = j.val / 16; omega
  | ⟨2, _⟩ => show (v.val * 1024 + j.val) / 1024 = v.val; omega

/-- A matrix product `L·Y` read at `(v, j)`, when `Y` is the channel-major matrix of the signal `X`:
    it is `(L·X)` at `(v, b, c)`.  The index functions of the product are given by their values. -/
theorem lap_read (L : (⟨2, ![8192, 8192]⟩ : Shape).Idx → EReal) (Y : (⟨2, ![8192, 1024]⟩ : Shape).Idx → EReal) (X : Signal)
    (hY : ∀ (v : Fin 8192) (j : Fin 1024), Y (ix2 v j) = X v (colB j) (colC j)) (v : Fin 8192) (j : Fin 1024)
    (li : Fin 8192 → (⟨2, ![8192, 8192]⟩ : Shape).Idx) (ri : Fin 8192 → (⟨2, ![8192, 1024]⟩ : Shape).Idx)
    (hl : ∀ k, li k = ix2 v k) (hr : ∀ k, ri k = ix2 k j) :
    ∑ k : Fin 8192, L (li k) * Y (ri k) = lap L X v (colB j) (colC j) := by
  unfold lap
  refine Finset.sum_congr rfl fun k _ => ?_
  rw [hl k, hr k, hY k j]

/-- The literal `2.0` broadcast over the matrix is the word the specification keeps. -/
theorem two4 (i : S8192x1024.Idx) : val_main_v4 (F := Ideal) i = two := by
  rw [val_main_v4_apply, val_main_cst_apply]; rfl
theorem two8 (i : S8192x1024.Idx) : val_main_v8 (F := Ideal) i = two := by
  rw [val_main_v8_apply, val_main_cst_0_apply]; rfl
theorem two12 (i : S8192x1024.Idx) : val_main_v12 (F := Ideal) i = two := by
  rw [val_main_v12_apply, val_main_cst_1_apply]; rfl

section
variable (x0 : (⟨S16x64x8192, .f32⟩ : BufTy).Contents (Elt Ideal)) (x1 : (⟨S8192x8192, .f32⟩ : BufTy).Contents (Elt Ideal))

/-- `L·T₀` in the channel-major layout. -/
theorem sig1 (v : Fin 8192) (j : Fin 1024) :
    val_main_v2 (F := Ideal) x0 x1 (ix2 v j) = T1 x1 x0 v (colB j) (colC j) := by
  rw [val_main_v2_apply]
  exact lap_read x1 _ (T0 x0) (sig0 x0) v j _ _
    (fun k => funext fun a => Fin.ext (by match a with | ⟨0, _⟩ => rfl | ⟨1, _⟩ => rfl))
    (fun k => funext fun a => Fin.ext (by match a with | ⟨0, _⟩ => rfl | ⟨1, _⟩ => rfl))

/-- `2·(L·T₁) − T₀` in the channel-major layout. -/
theorem sig2 (v : Fin 8192) (j : Fin 1024) :
    val_main_v6 (F := Ideal) x0 x1 (ix2 v j) = T2 x1 x0 v (colB j) (colC j) := by
  rw [val_main_v6_apply, val_main_v5_apply, two4, val_main_v3_apply, sig0]
  show two * _ - _ = two * lap x1 (T1 x1 x0) v (colB j) (colC j) - T0 x0 v (colB j) (colC j)
  rw [lap_read x1 _ (T1 x1 x0) (sig1 x0 x1) v j _ _
    (fun k => funext fun a => Fin.ext (by match a with | ⟨0, _⟩ => rfl | ⟨1, _⟩ => rfl))
    (fun k => funext fun a => Fin.ext (by match a with | ⟨0, _⟩ => rfl | ⟨1, _⟩ => rfl))]

/-- `2·(L·T₂) − T₁` in the channel-major layout. -/
theorem sig3 (v : Fin 8192) (j : Fin 1024) :
    val_main_v10 (F := Ideal) x0 x1 (ix2 v j) = T3 x1 x0 v (colB j) (colC j) := by
  rw [val_main_v10_apply, val_main_v9_apply, two8, val_main_v7_apply, sig1]
  show two * _ - _ = two * lap x1 (T2 x1 x0) v (colB j) (colC j) - T1 x1 x0 v (colB j) (colC j)
  rw [lap_read x1 _ (T2 x1 x0) (sig2 x0 x1) v j _ _
    (fun k => funext fun a => Fin.ext (by match a with | ⟨0, _⟩ => rfl | ⟨1, _⟩ => rfl))
    (fun k => funext fun a => Fin.ext (by match a with | ⟨0, _⟩ => rfl | ⟨1, _⟩ => rfl))]

/-- `2·(L·T₃) − T₂` in the channel-major layout. -/
theorem sig4 (v : Fin 8192) (j : Fin 1024) :
    val_main_v14 (F := Ideal) x0 x1 (ix2 v j) = T4 x1 x0 v (colB j) (colC j) := by
  rw [val_main_v14_apply, val_main_v13_apply, two12, val_main_v11_apply, sig2]
  show two * _ - _ = two * lap x1 (T3 x1 x0) v (colB j) (colC j) - T2 x1 x0 v (colB j) (colC j)
  rw [lap_read x1 _ (T3 x1 x0) (sig3 x0 x1) v j _ _
    (fun k => funext fun a => Fin.ext (by match a with | ⟨0, _⟩ => rfl | ⟨1, _⟩ => rfl))
    (fun k => funext fun a => Fin.ext (by match a with | ⟨0, _⟩ => rfl | ⟨1, _⟩ => rfl))]

end

/-- Five matrices stacked along a new leading axis: layer `k` of the stack is the `k`-th matrix. -/
theorem concat5_read (p : Fin 5 → (S1x8192x1024.Idx → EReal))
    (h : Shape.Concatenates (([⟨S1x8192x1024, p 0⟩, ⟨S1x8192x1024, p 1⟩, ⟨S1x8192x1024, p 2⟩, ⟨S1x8192x1024, p 3⟩,
      ⟨S1x8192x1024, p 4⟩] : List ((s : Shape) × (s.Idx → EReal))).map (·.1)) S5x8192x1024 0)
    (k : Fin 5) (v : Fin 8192) (j : Fin 1024) :
    concatenate S5x8192x1024 0 [⟨S1x8192x1024, p 0⟩, ⟨S1x8192x1024, p 1⟩, ⟨S1x8192x1024, p 2⟩, ⟨S1x8192x1024, p 3⟩,
      ⟨S1x8192x1024, p 4⟩] h (ix3 k v j) = p k (ix3 (0 : Fin 1) v j) := by
  have hi : ∀ b : Fin S1x8192x1024.rank, b.cast (rfl : S1x8192x1024.rank = S5x8192x1024.rank) ≠ 0 →
      ((ix3 (0 : Fin 1) v j : S1x8192x1024.Idx) b).val = ((ix3 k v j : S5x8192x1024.Idx) (b.cast rfl)).val := fun b hb => by
    match b with
    | ⟨0, _⟩ => exact absurd rfl hb
    | ⟨1, _⟩ => rfl
    | ⟨2, _⟩ => rfl
  match k with
  | ⟨0, _⟩ => exact concatenate_apply_piece 0 _ h _ 0 (show (0 : Nat) < 5 by omega) S1x8192x1024 (p 0) rfl rfl 0 rfl (ix3 (0 : Fin 1) v j) hi rfl
  | ⟨1, _⟩ => exact concatenate_apply_piece 0 _ h _ 1 (show (1 : Nat) < 5 by omega) S1x8192x1024 (p 1) rfl rfl 1 rfl (ix3 (0 : Fin 1) v j) hi rfl
  | ⟨2, _⟩ => exact concatenate_apply_piece 0 _ h _ 2 (show (2 : Nat) < 5 by omega) S1x8192x1024 (p 2) rfl rfl 2 rfl (ix3 (0 : Fin 1) v j) hi rfl
  | ⟨3, _⟩ => exact concatenate_apply_piece 0 _ h _ 3 (show (3 : Nat) < 5 by omega) S1x8192x1024 (p 3) rfl rfl 3 rfl (ix3 (0 : Fin 1) v j) hi rfl
  | ⟨4, _⟩ => exact concatenate_apply_piece 0 _ h _ 4 (show (4 : Nat) < 5 by omega) S1x8192x1024 (p 4) rfl rfl 4 rfl (ix3 (0 : Fin 1) v j) hi rfl

section
variable (x0 : (⟨S16x64x8192, .f32⟩ : BufTy).Contents (Elt Ideal)) (x1 : (⟨S8192x8192, .f32⟩ : BufTy).Contents (Elt Ideal))

/-- The five signal matrices, each with a leading axis of extent one, by Chebyshev order. -/
def pieces : Fin 5 → (S1x8192x1024.Idx → EReal)
  | ⟨0, _⟩ => val_main_v15 (F := Ideal) x0
  | ⟨1, _⟩ => val_main_v16 (F := Ideal) x0 x1
  | ⟨2, _⟩ => val_main_v17 (F := Ideal) x0 x1
  | ⟨3, _⟩ => val_main_v18 (F := Ideal) x0 x1
  | ⟨4, _⟩ => val_main_v19 (F := Ideal) x0 x1

/-- A matrix given a leading unit axis is read at its own `(v, j)`. -/
theorem unit_lead (v : Fin 8192) (j : Fin 1024) : idx_main_v15 (ix3 (0 : Fin 1) v j) = ix2 v j :=
  funext fun a => Fin.ext (by match a with | ⟨0, _⟩ => rfl | ⟨1, _⟩ => rfl)

/-- Layer `k` of the stack is the `k`-th Chebyshev signal, channel-major. -/
theorem stack_read (k : Fin 5) (v : Fin 8192) (j : Fin 1024) :
    val_main_v20 (F := Ideal) x0 x1 (ix3 k v j) = T x1 x0 k v (colB j) (colC j) := by
  unfold val_main_v20
  refine (concat5_read (pieces x0 x1) _ k v j).trans ?_
  match k with
  | ⟨0, _⟩ =>
    show val_main_v15 (F := Ideal) x0 (ix3 (0 : Fin 1) v j) = T0 x0 v (colB j) (colC j)
    rw [val_main_v15_apply, unit_lead, sig0]
  | ⟨1, _⟩ =>
    show val_main_v16 (F := Ideal) x0 x1 (ix3 (0 : Fin 1) v j) = T1 x1 x0 v (colB j) (colC j)
    rw [val_main_v16_apply, show idx_main_v16 (ix3 (0 : Fin 1) v j) = ix2 v j from unit_lead v j, sig1]
  | ⟨2, _⟩ =>
    show val_main_v17 (F := Ideal) x0 x1 (ix3 (0 : Fin 1) v j) = T2 x1 x0 v (colB j) (colC j)
    rw [val_main_v17_apply, show idx_main_v17 (ix3 (0 : Fin 1) v j) = ix2 v j from unit_lead v j, sig2]
  | ⟨3, _⟩ =>
    show val_main_v18 (F := Ideal) x0 x1 (ix3 (0 : Fin 1) v j) = T3 x1 x0 v (colB j) (colC j)
    rw [val_main_v18_apply, show idx_main_v18 (ix3 (0 : Fin 1) v j) = ix2 v j from unit_lead v j, sig3]
  | ⟨4, _⟩ =>
    show val_main_v19 (F := Ideal) x0 x1 (ix3 (0 : Fin 1) v j) = T4 x1 x0 v (colB j) (colC j)
    rw [val_main_v19_apply, show idx_main_v19 (ix3 (0 : Fin 1) v j) = ix2 v j from unit_lead v j, sig4]

/-- Row `b·8192 + v` of the feature matrix. -/
abbrev row (b : Fin 16) (v : Fin 8192) : Fin 131072 := ⟨b.val * 8192 + v.val, by have := b.isLt; have := v.isLt; omega⟩
/-- Column `c·16 + b` of a signal matrix. -/
abbrev col (c : Fin 64) (b : Fin 16) : Fin 1024 := ⟨c.val * 16 + b.val, by have := b.isLt; have := c.isLt; omega⟩

/-- The feature matrix splits its row into (batch, vertex) and its column into (channel, order). -/
theorem feat_split (b : Fin 16) (v : Fin 8192) (f : Fin 320) :
    idx_main_v23 (ix2 (row b v) f) = ix4 b v (chan f) (order f) := by
  funext a
  apply Fin.ext
  have hb := b.isLt
  have hv := v.isLt
  have hf := f.isLt
  match a with
  | ⟨0, _⟩ => show ((b.val * 8192 + v.val) * 320 + f.val) / 2621440 = b.val; omega
  | ⟨1, _⟩ => show ((b.val * 8192 + v.val) * 320 + f.val) / 320 % 8192 = v.val; omega
  | ⟨2, _⟩ => show ((b.val * 8192 + v.val) * 320 + f.val) / 5 % 64 = f.val / 5; omega
  | ⟨3, _⟩ => show ((b.val * 8192 + v.val) * 320 + f.val) % 5 = f.val % 5; omega

/-- The transposition brings the order to the front and the batch to the back. -/
theorem feat_swap (b : Fin 16) (v : Fin 8192) (c : Fin 64) (k : Fin 5) :
    idx_main_v22 (ix4 b v c k) = ix4 k v c b :=
  funext fun a => Fin.ext (by match a with | ⟨0, _⟩ => rfl | ⟨1, _⟩ => rfl | ⟨2, _⟩ => rfl | ⟨3, _⟩ => rfl)

/-- Splitting the 1024 columns into (channel, batch) is the channel-major numbering. -/
theorem feat_join (k : Fin 5) (v : Fin 8192) (c : Fin 64) (b : Fin 16) :
    idx_main_v21 (ix4 k v c b) = ix3 k v (col c b) := by
  funext a
  apply Fin.ext
  have hb := b.isLt
  have hv := v.isLt
  have hc := c.isLt
  have hk := k.isLt
  match a with
  | ⟨0, _⟩ => show (((k.val * 8192 + v.val) * 64 + c.val) * 16 + b.val) / 8388608 = k.val; omega
  | ⟨1, _⟩ => show (((k.val * 8192 + v.val) * 64 + c.val) * 16 + b.val) / 1024 % 8192 = v.val; omega
  | ⟨2, _⟩ => show (((k.val * 8192 + v.val) * 64 + c.val) * 16 + b.val) % 1024 = c.val * 16 + b.val; omega

/-- The feature matrix: entry `(b·8192 + v, f)` is the signal of order `f mod 5` at vertex `v`, batch `b`,
    channel `f div 5`. -/
theorem feat_read (b : Fin 16) (v : Fin 8192) (f : Fin 320) :
    val_main_v23 (F := Ideal) x0 x1 (ix2 (row b v) f) = T x1 x0 (order f) v b (chan f) := by
  rw [val_main_v23_apply, feat_split, val_main_v22_apply, feat_swap, val_main_v21_apply, feat_join, stack_read]
  have hb := b.isLt
  have hc := (chan f).isLt
  have e1 : colB (col (chan f) b) = b := Fin.ext (by show ((chan f).val * 16 + b.val) % 16 = b.val; omega)
  have e2 : colC (col (chan f) b) = chan f := Fin.ext (by show ((chan f).val * 16 + b.val) / 16 = (chan f).val; omega)
  rw [e1, e2]

end

/-- THE REFERENCE COMPUTES `G`: at `(b, o, v)` the sum over the 320 features of the Chebyshev signal times the
    weight, plus the bias. -/
theorem ref_eq (x0 : (⟨S16x64x8192, .f32⟩ : BufTy).Contents (Elt Ideal)) (x1 : (⟨S8192x8192, .f32⟩ : BufTy).Contents (Elt Ideal))
    (x2 : (⟨S128x320, .f32⟩ : BufTy).Contents (Elt Ideal)) (x3 : (⟨S128, .f32⟩ : BufTy).Contents (Elt Ideal)) :
    Cert.ReferenceIdeal.Read.val_main_v30 (F := Ideal) x0 x1 x2 x3 = Cert.ChebSpec.G x0 x1 x2 x3 := by
  funext i
  obtain ⟨b, o, v, rfl⟩ : ∃ (b : Fin 16) (o : Fin 128) (v : Fin 8192), i = ix3 b o v := ⟨i 0, i 1, i 2, eq_ix3 i⟩
  have hb := b.isLt
  have ho := o.isLt
  have hv := v.isLt
  have e30 : idx_main_v30 (ix3 b o v) = ix3 b v o :=
    funext fun a => Fin.ext (by match a with | ⟨0, _⟩ => rfl | ⟨1, _⟩ => rfl | ⟨2, _⟩ => rfl)
  have e29 : idx_main_v29 (ix3 b v o) = ix2 (row b v) o := funext fun a => Fin.ext (by
    match a with
    | ⟨0, _⟩ => show ((b.val * 8192 + v.val) * 128 + o.val) / 128 = b.val * 8192 + v.val; omega
    | ⟨1, _⟩ => show ((b.val * 8192 + v.val) * 128 + o.val) % 128 = o.val; omega)
  have e27 : idx_main_v26 (idx_main_v27 (ix2 (row b v) o)) = ix1 o :=
    funext fun a => Fin.ext (by match a with | ⟨0, _⟩ => rfl)
  have el : ∀ f : Fin 320, lidx_main_v25 (ix2 (row b v) o) f = ix2 (row b v) f := fun f =>
    funext fun a => Fin.ext (by match a with | ⟨0, _⟩ => rfl | ⟨1, _⟩ => rfl)
  have er : ∀ f : Fin 320, idx_main_v24 (ridx_main_v25 (ix2 (row b v) o) f) = ix2 o f := fun f =>
    funext fun a => Fin.ext (by match a with | ⟨0, _⟩ => rfl | ⟨1, _⟩ => rfl)
  rw [val_main_v30_apply, e30, val_main_v29_apply, e29, val_main_v28_apply, val_main_v25_apply, val_main_v27_apply,
    val_main_v26_apply, e27]
  show (∑ f : Fin 320, _ * _) + x3 (ix1 o) = (∑ f : Fin 320, T x1 x0 (order f) v b (chan f) * x2 (ix2 o f)) + x3 (ix1 o)
  congr 1
  refine Finset.sum_congr rfl fun f _ => ?_
  rw [el f, feat_read, val_main_v24_apply, er f]

end Cert.ReferenceIdeal.RefValue

end
-- ==== Proof.lean ====
/-
  A Chebyshev graph convolution, order 5, against its jnp reference, on the extended reals.

  Both programs compute, for input `x[b, c, v]`, Laplacian `L`, weights `w[o, j]` and bias, the signals
  `T₀ = x`, `T₁ = L·T₀`, `Tₙ₊₁ = 2·(L·Tₙ) − Tₙ₋₁` and the linear layer
  `out[b, o, v] = ∑_{j < 320} T_{j mod 5}(v, b, j div 5) · w[o, j] + bias[o]` (Proof/Spec.lean).

  The kernel is five pipelined regions among host operations: four regions, each one recurrence step on
  (8192 × 1024) signal matrices in blocks of 256 rows (`α·(L·X) + β·P` with (α, β) = (1, 0), then (2, −1) three
  times), and one region for the linear layer on (131072 × 64) row views in blocks of 4096 rows, the five orders
  accumulated one after the other.  Its run (Proof/RunOut.lean) ends with the result buffer at the last of eleven
  boundary contents; read back through the host stretches and through each region's whole-array function
  (Proof/ChebRegion.lean, Proof/FinalRegion.lean) that is a composition of array functions of the arguments
  (Proof/Arrays.lean, Proof/Walk.lean), which is the specification (Proof/KernelValue.lean).  The reference's
  run is its operations' composed term, which is the specification too (Proof/RefValue.lean).  The two layouts of
  a signal matrix, the two spellings of a step and the two orders of the 320 additions meet in the
  specification; nothing needs the inputs to be finite.  The ideal pass rewrote nothing, so `preserves` has
  nothing to state.
-/
import proofs.«165978_j16449724743711_2_alg».proof.Defs
import proofs.«165978_j16449724743711_2_alg».proof.Proof.Gen.Kernel
import proofs.«165978_j16449724743711_2_alg».proof.Proof.Gen.Kernel.Skeleton
import proofs.«165978_j16449724743711_2_alg».proof.Proof.Gen.Kernel.Launch
import proofs.«165978_j16449724743711_2_alg».proof.Proof.Gen.Kernel.Points
import proofs.«165978_j16449724743711_2_alg».proof.Proof.Gen.Kernel.Frame
import proofs.«165978_j16449724743711_2_alg».proof.Proof.Gen.KernelIdeal
import proofs.«165978_j16449724743711_2_alg».proof.Proof.Gen.KernelIdeal.Skeleton
import proofs.«165978_j16449724743711_2_alg».proof.Proof.Gen.KernelIdeal.Launch
import proofs.«165978_j16449724743711_2_alg».proof.Proof.Gen.KernelIdeal.Points
import proofs.«165978_j16449724743711_2_alg».proof.Proof.Gen.KernelIdeal.Frame
import proofs.«165978_j16449724743711_2_alg».proof.Proof.Gen.ReferenceIdeal
import proofs.«165978_j16449724743711_2_alg».proof.Proof.Gen.Pre_finite_inputs
import proofs.«165978_j16449724743711_2_alg».proof.Proof.Gen.ReferenceIdeal.Run
import proofs.«165978_j16449724743711_2_alg».proof.Proof.Gen.ReferenceIdeal.Read
import proofs.«165978_j16449724743711_2_alg».proof.Proof.RunOut
import proofs.«165978_j16449724743711_2_alg».proof.Proof.Walk
import proofs.«165978_j16449724743711_2_alg».proof.Proof.ChebRegion
import proofs.«165978_j16449724743711_2_alg».proof.Proof.FinalRegion
import proofs.«165978_j16449724743711_2_alg».proof.Proof.KernelValue
import proofs.«165978_j16449724743711_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel's result buffer ends at the specification's function of the argument arrays. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W11 m ρ c (Proc.devRef .tc Cert.KernelIdeal.main_v21)
      = Cert.ChebSpec.G (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) :=
  (Cert.KernelIdeal.Walk.w11_v21 m ρ c Cert.KernelIdeal.ChebRegion.final0 Cert.KernelIdeal.ChebRegion.final1
      Cert.KernelIdeal.ChebRegion.final2 Cert.KernelIdeal.ChebRegion.final3 Cert.KernelIdeal.FinalRegion.final4).trans
    (Cert.KernelIdeal.KernelValue.OUT_eq _ _ _ _)

/-- Both idealized programs end with the specification's function of arguments that agree. -/
theorem algebraic : Cert.algebraic_KernelIdeal_ReferenceIdeal := by
  intro m ρ m' ρ' _ hagree
  refine ⟨fun c => Cert.ChebSpec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (kernel_result m ρ c), (h c).2⟩) (Cert.KernelIdeal.RunOut.run_out (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v30_eq, Cert.ReferenceIdeal.RefValue.ref_eq,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
